-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x50000 : Shape := ⟨2, ![1, 50000]⟩
abbrev S1x1x1x50000 : Shape := ⟨4, ![1, 1, 1, 50000]⟩
abbrev S2x1x1x50000 : Shape := ⟨4, ![2, 1, 1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S1000x128 : Shape := ⟨2, ![1000, 128]⟩
abbrev S850000x128 : Shape := ⟨2, ![850000, 128]⟩
abbrev S1x128 : Shape := ⟨2, ![1, 128]⟩

abbrev nBuf : Space → Nat
  | .hbm => 89
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x50000, .i32⟩
  | .hbm, ⟨8, _⟩ => ⟨S1x1x1x50000, .i32⟩
  | .hbm, ⟨9, _⟩ => ⟨S2x1x1x50000, .i32⟩
  | .hbm, ⟨10, _⟩ => ⟨S2x50000, .i32⟩
  | .hbm, ⟨11, _⟩ => ⟨S2x850000, .i32⟩
  | .hbm, ⟨12, _⟩ => ⟨S1x850000, .i32⟩
  | .hbm, ⟨13, _⟩ => ⟨S850000, .i32⟩
  | .hbm, ⟨14, _⟩ => ⟨S1x850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S50000_S1x50000_1 : S50000.BroadcastsInDim S1x50000 (![1] : Fin 1 → Fin S1x50000.rank)
  shapeCasts_S1x50000_S1x1x1x50000 : S1x50000.ShapeCasts S1x1x1x50000
  bcast_S1x1x1x50000_S2x1x1x50000_0_1_2_3 : S1x1x1x50000.BroadcastsInDim S2x1x1x50000 (![0, 1, 2, 3] : Fin 4 → Fin S2x1x1x50000.rank)
  shapeCasts_S2x1x1x50000_S2x50000 : S2x1x1x50000.ShapeCasts S2x50000
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1000x128_S1000x128 : S1000x128.ShapeCasts S1000x128
  shapeCasts_S1x128_S1x128 : S1x128.ShapeCasts S1x128
  reduces_S1000x128_S128 : S1000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S1000x128 : S1x128.Broadcasts S1000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x128_S128x128_S1000x128_1_0_0_1_n_n_wf : DotDims.WF S1000x128 S128x128 S1000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S50000x128.size a
  hwx2_6 : ∀ i : grid2.Coords, EltTy.bits .f32 = 32 ∨ (Rect.block (s := S50000x128) S1000x128.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x50000 : Shape := ⟨2, ![1, 50000]⟩
abbrev S1x1x1x50000 : Shape := ⟨4, ![1, 1, 1, 50000]⟩
abbrev S2x1x1x50000 : Shape := ⟨4, ![2, 1, 1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x50000, .i32⟩
  | .hbm, ⟨8, _⟩ => ⟨S1x1x1x50000, .i32⟩
  | .hbm, ⟨9, _⟩ => ⟨S2x1x1x50000, .i32⟩
  | .hbm, ⟨10, _⟩ => ⟨S2x50000, .i32⟩
  | .hbm, ⟨11, _⟩ => ⟨S2x850000, .i32⟩
  | .hbm, ⟨12, _⟩ => ⟨S1x850000, .i32⟩
  | .hbm, ⟨13, _⟩ => ⟨S850000, .i32⟩
  | .hbm, ⟨14, _⟩ => ⟨S1x850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .i32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_13 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_call2_cst : Ref sig .tc := ⟨.hbm, 116, rfl⟩
abbrev main_call2_v0 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  shapeCasts_S1x50000_S1x1x1x50000 : S1x50000.ShapeCasts S1x1x1x50000
  bcast_S1x1x1x50000_S2x1x1x50000_0_1_2_3 : S1x1x1x50000.BroadcastsInDim S2x1x1x50000 (![0, 1, 2, 3] : Fin 4 → Fin S2x1x1x50000.rank)
  shapeCasts_S2x1x1x50000_S2x50000 : S2x1x1x50000.ShapeCasts S2x50000
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RefRun.lean ====
/- The reference program's run. @main is a straight line of host tensor operations once its three
   outlined functions (the masked inverse square root of the degrees, the column variance — which itself calls a
   masked select —, and the clamp below at zero) are substituted at their call sites: 114 operations in order, each
   writing one buffer of its own. From any launch memory every fair execution terminates with every buffer at the
   fold of the operations' results over the launch contents (`run_main`), and the six argument buffers, which no
   operation writes, keep their contents. -/
import proofs.«153004_j65549790872161_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 114 operations, in order, the three calls (and the call nested in the second) unfolded over their
    buffer records. -/
abbrev ops : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.reshape main_v1 main_v2 rfl shapeCasts_S1x50000_S1x1x1x50000,
    StableHlo.unary main_v2 main_v3 (broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)),
    StableHlo.reshape main_v3 main_v4 rfl shapeCasts_S2x1x1x50000_S2x50000,
    StableHlo.binary main_arg1 main_v4 main_v5 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    StableHlo.unary main_v5 main_v6 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v6 main_v7 rfl shapeCasts_S1x850000_S850000,
    StableHlo.unary main_v5 main_v8 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v8 main_v9 rfl shapeCasts_S1x850000_S850000,
    StableHlo.nullary main_cst (constant S_ .f32 0x3F800000#32),
    StableHlo.unary main_cst main_v10 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v11 (broadcastInDim S50000 ![] bcast_S_S50000 : (⟨S_, .f32⟩ : BufTy).Contents (Elt F) → (⟨S50000, .f32⟩ : BufTy).Contents (Elt F)),
    StableHlo.unary main_v7 main_v12 (broadcastInDim S850000x1 ![0] bcast_S850000_S850000x1_0 : (⟨S850000, .i32⟩ : BufTy).Contents (Elt F) → (⟨S850000x1, .i32⟩ : BufTy).Contents (Elt F)),
    StableHlo.ternary main_v11 main_v12 main_v10 main_v13 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v14 (broadcastInDim S50000 ![] bcast_S_S50000 : (⟨S_, .f32⟩ : BufTy).Contents (Elt F) → (⟨S50000, .f32⟩ : BufTy).Contents (Elt F)),
    StableHlo.binary main_v13 main_v14 main_v15 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0xBF000000#32),
    StableHlo.unary main_cst_2 main_v16 (broadcastInDim S50000 ![] bcast_S_S50000 : (⟨S_, .f32⟩ : BufTy).Contents (Elt F) → (⟨S50000, .f32⟩ : BufTy).Contents (Elt F)),
    StableHlo.binary main_v13 main_v16 main_v17 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v15 : StableHlo.TRef sig ⟨S50000, .i1⟩) (.of main_v17 : StableHlo.TRef sig ⟨S50000, .f32⟩) main_call0.v1 main_call0.v2 select,
    StableHlo.nullary main_c (constantI S_ 32 0#32),
    StableHlo.unary main_c main_v19 (broadcastInDim S850000 ![] bcast_S_S850000 : (⟨S_, .i32⟩ : BufTy).Contents (Elt F) → (⟨S850000, .i32⟩ : BufTy).Contents (Elt F)),
    StableHlo.binary main_v7 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v21 (broadcastInDim S850000 ![] bcast_S_S850000 : (⟨S_, .i32⟩ : BufTy).Contents (Elt F) → (⟨S850000, .i32⟩ : BufTy).Contents (Elt F)),
    StableHlo.binary main_v7 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v7 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v25 main_v10 main_v26 (mulf : (⟨S850000, .f32⟩ : BufTy).Contents (Elt F) → (⟨S850000, .f32⟩ : BufTy).Contents (Elt F) → (⟨S850000, .f32⟩ : BufTy).Contents (Elt F)),
    StableHlo.nullary main_c_5 (constantI S_ 32 0#32),
    StableHlo.unary main_c_5 main_v27 (broadcastInDim S850000 ![] bcast_S_S850000 : (⟨S_, .i32⟩ : BufTy).Contents (Elt F) → (⟨S850000, .i32⟩ : BufTy).Contents (Elt F)),
    StableHlo.binary main_v9 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v29 (broadcastInDim S850000 ![] bcast_S_S850000 : (⟨S_, .i32⟩ : BufTy).Contents (Elt F) → (⟨S850000, .i32⟩ : BufTy).Contents (Elt F)),
    StableHlo.binary main_v9 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v9 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v18 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.binary main_arg0 main_arg2 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v36 (broadcastInDim S850000 ![] bcast_S_S850000 : (⟨S_, .i32⟩ : BufTy).Contents (Elt F) → (⟨S850000, .i32⟩ : BufTy).Contents (Elt F)),
    StableHlo.binary main_v9 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v38 (broadcastInDim S850000 ![] bcast_S_S850000 : (⟨S_, .i32⟩ : BufTy).Contents (Elt F) → (⟨S850000, .i32⟩ : BufTy).Contents (Elt F)),
    StableHlo.binary main_v9 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v9 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_v35 main_v41 main_v42 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v34 main_v43 (broadcastInDim S850000x1 ![0] bcast_S850000_S850000x1_0 : (⟨S850000, .f32⟩ : BufTy).Contents (Elt F) → (⟨S850000x1, .f32⟩ : BufTy).Contents (Elt F)),
    StableHlo.unary main_v43 main_v44 (broadcastInDim S850000x128 ![0, 1] bcast_S850000x1_S850000x128_0_1 : (⟨S850000x1, .f32⟩ : BufTy).Contents (Elt F) → (⟨S850000x128, .f32⟩ : BufTy).Contents (Elt F)),
    StableHlo.binary main_v42 main_v44 main_v45 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v46 (broadcastInDim S50000x128 ![] bcast_S_S50000x128 : (⟨S_, .f32⟩ : BufTy).Contents (Elt F) → (⟨S50000x128, .f32⟩ : BufTy).Contents (Elt F)),
    StableHlo.unary main_v7 main_v47 (broadcastInDim S850000x1 ![0] bcast_S850000_S850000x1_0 : (⟨S850000, .i32⟩ : BufTy).Contents (Elt F) → (⟨S850000x1, .i32⟩ : BufTy).Contents (Elt F)),
    StableHlo.ternary main_v46 main_v47 main_v45 main_v48 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v51 main_cst_10 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call1.cst (constant S_ .f32 0x00000000#32),
    StableHlo.TRef.binary (.of main_v51 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v51 : StableHlo.TRef sig ⟨S50000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg4 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg5 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v70 : StableHlo.TRef sig ⟨S50000x128, .f32⟩) main_call2.v0 main_call2.v1 maximumf,
    StableHlo.binary main_v71 main_arg0 main_v72 (addf : (⟨S50000x128, .f32⟩ : BufTy).Contents (Elt F) → (⟨S50000x128, .f32⟩ : BufTy).Contents (Elt F) → (⟨S50000x128, .f32⟩ : BufTy).Contents (Elt F)) ]

set_option maxRecDepth 4096 in
set_option maxHeartbeats 4000000 in
/-- @main is that straight line: the two windows in order, the functions' definitions unfolded at their calls and the
    records at their fields; both sides are one chain of steps once sequencing is reassociated. -/
theorem main_eq (c : Dev nD) : main (F := F) c = seq ops := by
  simp only [main, main_part0, main_part1, fn_where.body, fn_where_0.body, fn_var.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub .., binary_bufs_sub ..,
    unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument buffer: each keeps its launch contents through the whole line. -/

set_option maxRecDepth 8192
set_option maxHeartbeats 4000000

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

end Cert.ReferenceIdeal.RefRun

end
-- ==== Proof.RefFrame.lean ====
/- The three frame claims: each program, from any launch memory whose float inputs are finite, runs to the end and
   leaves its six argument arrays holding what they held at launch. For the kernel and its idealization this is the
   generated frame certificate. The reference is a straight line of host tensor operations, each writing a buffer of
   its own: its run ends with every buffer at the fold of the operations' results over the launch contents, and no
   operation writes an argument buffer, so the fold reads each argument's launch contents back. -/
import proofs.«153004_j65549790872161_1_alg».proof.Defs
import proofs.«153004_j65549790872161_1_alg».proof.Proof.RefRun
import proofs.«153004_j65549790872161_1_alg».proof.Proof.Gen.Kernel
import proofs.«153004_j65549790872161_1_alg».proof.Proof.Gen.Kernel.Frame
import proofs.«153004_j65549790872161_1_alg».proof.Proof.Gen.KernelIdeal
import proofs.«153004_j65549790872161_1_alg».proof.Proof.Gen.KernelIdeal.Frame
import proofs.«153004_j65549790872161_1_alg».proof.Proof.Gen.ReferenceIdeal
import proofs.«153004_j65549790872161_1_alg».proof.Proof.Gen.Pre_finite_inputs

noncomputable section

namespace Cert.Proof.Frames

open Idealize.ShloMosaic Idealize.SL.Sem

/-- The kernel runs and its argument arrays end unchanged: the generated frame certificate, at the bit-exact values. -/
theorem frame_k : Cert.frame_Kernel := fun m ρ _ => Cert.Kernel.Gen.frame m ρ

/-- The kernel's idealization likewise, at the ideal values. -/
theorem frame_ki : Cert.frame_KernelIdeal := fun m ρ _ => Cert.KernelIdeal.Gen.frame m ρ

/-- The reference runs, and each argument array ends at the operations' fold over the launch contents read at that
    argument, which is the launch contents there. -/
theorem frame_ri : Cert.frame_ReferenceIdeal := fun m ρ _ =>
  (θ_run Cert.ReferenceIdeal.defs _ _).mono
    (fun _ h c =>
      ⟨(h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _),
       (h c Cert.ReferenceIdeal.main_arg5).trans (Cert.ReferenceIdeal.RefRun.arg5_eq _)⟩)
    (Cert.ReferenceIdeal.RefRun.run_main (F := Ideal) m ρ)

end Cert.Proof.Frames

end
-- ==== Proof.Spec.lean ====
/- The functions of the argument arrays that both programs compute, read entry by entry over the extended reals.
   A graph-convolution layer followed by batch normalization: the node features times the weight matrix
   (`mmAt`), then (elsewhere) a weighted sum over each node's edges plus a bias, giving a 50000 × 128 matrix `A`;
   each column of `A` is then centred at its mean and divided by the square root of its variance plus a small
   constant, scaled, shifted, clamped below at zero, and the input features are added back (`bnAt`). The column
   mean and variance are functions of the column sums `colSum` and `colSumSq` (one-pass form) or of `colSum`
   and the sum of squared deviations (two-pass form); the two forms agree on columns of real numbers. -/
import Idealize.ShloMosaic.PureOps.Ideal
import Idealize.ShloMosaic.Lib.ValueIdx

noncomputable section

open scoped BigOperators

namespace Cert.Bn

open Idealize.ShloMosaic Idealize.ShloMosaic.ValueIdx

/-- An `n × k` matrix of extended reals, as a function of its two-coordinate index. -/
abbrev Mat (n k : Nat) : Type := (⟨2, ![n, k]⟩ : Shape).Idx → EReal

/-- Entry `(p, q)` of the product of a 50000 × 128 matrix with a 128 × 128 matrix: the sum over the shared
    coordinate of the products. -/
def mmAt (X : Mat 50000 128) (W : Mat 128 128) (p : Fin 50000) (q : Fin 128) : EReal :=
  ∑ k : Fin 128, X (ix2 p k) * W (ix2 k q)

/-- The sum of column `q` over all 50000 rows. -/
def colSum (A : Mat 50000 128) (q : Fin 128) : EReal := ∑ r : Fin 50000, A (ix2 r q)

/-- The sum of the squares of column `q` over all 50000 rows. -/
def colSumSq (A : Mat 50000 128) (q : Fin 128) : EReal := ∑ r : Fin 50000, A (ix2 r q) * A (ix2 r q)

/-- The small constant added to the variance before the inverse square root: the single-precision number
    nearest to one hundred-thousandth, at its exact binary value (both programs spell the same word). -/
abbrev eps : EReal := Ideal.ofBits .f32 0x3727C5AC#32

/-- Entry `(p, q)` of the normalized output: centre column `q` of `A` at `μ q`, multiply by the inverse square
    root of `v q + eps`, scale by `γ q`, shift by `β q`, clamp below at zero, add the residual `X`. -/
def bnAt (A X : Mat 50000 128) (μ v γ β : Fin 128 → EReal) (p : Fin 50000) (q : Fin 128) : EReal :=
  max (((A (ix2 p q) - μ q) * Ideal.rsqrt (v q + eps)) * γ q + β q) (Ideal.ofBits .f32 0x00000000#32) + X (ix2 p q)

end Cert.Bn

end
-- ==== Proof.LibRealEntries.lean ====
/- Families of extended reals all of whose entries are real numbers (neither infinity): closure of that property
   under the arithmetic a weighted neighbourhood sum is built from, and the identity between the one-pass and
   the two-pass form of the variance of such a family. -/
import Idealize.ShloMosaic.PureOps.Ideal
import Idealize.ShloMosaic.PureOps.Ideal.Laws
import Idealize.ShloMosaic.Lib.ValueIdx
import Mathlib.Data.EReal.Basic
import Mathlib.Algebra.BigOperators.Fin
import Mathlib.Tactic

noncomputable section

open scoped BigOperators

namespace Cert.RealEntries

open Idealize.ShloMosaic

/-- An extended real is *real* when it is the coercion of a real number, that is, neither infinity. -/
abbrev IsReal (x : EReal) : Prop := ∃ r : ℝ, x = (r : EReal)

/-- Being real is being different from both infinities. -/
theorem isReal_iff_ne (x : EReal) : IsReal x ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

/-- The coercion of a finite sum of real numbers is the sum of the coercions. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over the real numbers: the mean of the squares minus the square of the mean is the mean of the squared
    deviations from the mean, because Σ (rᵢ − μ)² = Σ rᵢ² − 2 μ Σ rᵢ + N μ² and Σ rᵢ = N μ. -/
theorem real_variance {ι : Type*} [Fintype ι] (N : ℝ) (hN : N = (Fintype.card ι : ℝ)) (hN0 : N ≠ 0) (r : ι → ℝ) :
    (∑ i, r i * r i) * (1 / N) - (∑ i, r i) * (1 / N) * ((∑ i, r i) * (1 / N))
      = (∑ i, (r i - (∑ i, r i) * (1 / N)) * (r i - (∑ i, r i) * (1 / N))) * (1 / N) := by
  set S := ∑ i, r i with hS
  set μ := S * (1 / N) with hμ
  have h : ∑ i, (r i - μ) * (r i - μ) = ∑ i, r i * r i - 2 * μ * S + N * (μ * μ) := by
    have : ∀ i, (r i - μ) * (r i - μ) = r i * r i - 2 * μ * r i + μ * μ := fun i => by ring
    simp only [this, Finset.sum_add_distrib, Finset.sum_sub_distrib, ← Finset.mul_sum, Finset.sum_const,
      Finset.card_univ, nsmul_eq_mul, ← hN, ← hS]
    ring
  rw [h, hμ]
  field_simp
  ring

/-- The variance law. For a family of N ≠ 0 real entries, the one-pass variance (mean of the squares minus the
    square of the mean) equals the two-pass variance (mean of the squared deviations from the mean), all
    divisions being the extended-real division by the real number N. -/
theorem variance_one_pass_eq_two_pass {ι : Type*} [Fintype ι] (N : ℝ) (hN : N = (Fintype.card ι : ℝ)) (hN0 : N ≠ 0)
    (a : ι → EReal) (ha : ∀ i, ∃ r : ℝ, a i = (r : EReal)) :
    Ideal.div (∑ i, a i * a i) (N : EReal) - Ideal.div (∑ i, a i) (N : EReal) * Ideal.div (∑ i, a i) (N : EReal)
      = Ideal.div (∑ i, (a i - Ideal.div (∑ i, a i) (N : EReal)) * (a i - Ideal.div (∑ i, a i) (N : EReal)))
          (N : EReal) := by
  choose r hr using ha
  obtain rfl : a = fun i => (r i : EReal) := funext hr
  simp only [Ideal.div_coe hN0, ← EReal.coe_mul, ← coe_finset_sum, ← EReal.coe_sub]
  exact congrArg _ (real_variance N hN hN0 r)

/-- The variance law for a family indexed by `Fin n`, `n` positive, dividing by `n` itself. -/
theorem variance_fin {n : ℕ} (hn : 0 < n) (a : Fin n → EReal) (ha : ∀ i, ∃ r : ℝ, a i = (r : EReal)) :
    Ideal.div (∑ i, a i * a i) ((n : ℝ) : EReal)
        - Ideal.div (∑ i, a i) ((n : ℝ) : EReal) * Ideal.div (∑ i, a i) ((n : ℝ) : EReal)
      = Ideal.div (∑ i, (a i - Ideal.div (∑ i, a i) ((n : ℝ) : EReal)) * (a i - Ideal.div (∑ i, a i) ((n : ℝ) : EReal)))
          ((n : ℝ) : EReal) :=
  variance_one_pass_eq_two_pass (n : ℝ) (by simp) (by exact_mod_cast hn.ne') a ha

/-! ### Closure of "real" under the arithmetic -/

/-- The coercion of a real number is real. -/
theorem isReal_coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- The sum of two reals is real. -/
theorem isReal_add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem isReal_mul {x y : EReal} (hx : IsReal x) (hy : IsReal y) : IsReal (x * y) := by
  obtain ⟨a, rfl⟩ := hx; obtain ⟨b, rfl⟩ := hy; exact ⟨a * b, (EReal.coe_mul a b).symm⟩

/-- The opposite of a real is real. -/
theorem isReal_neg {x : EReal} (hx : IsReal x) : IsReal (-x) := by
  obtain ⟨a, rfl⟩ := hx; exact ⟨-a, (EReal.coe_neg a).symm⟩

/-- The greater of two reals is real (it is one of them). -/
theorem isReal_max {x y : EReal} (hx : IsReal x) (hy : IsReal y) : IsReal (max x y) := by
  rcases max_choice x y with h | h <;> rw [h] <;> assumption

/-- A sum over a finite set of real entries is real. -/
theorem isReal_sum {ι : Type*} (s : Finset ι) (f : ι → EReal) (hf : ∀ i ∈ s, IsReal (f i)) :
    IsReal (∑ i ∈ s, f i) := by
  classical
  revert hf
  refine Finset.induction_on s (fun _ => by simpa using isReal_zero) ?_
  intro a s ha ih hf
  rw [Finset.sum_insert ha]
  exact isReal_add (hf a (Finset.mem_insert_self a s)) (ih fun i hi => hf i (Finset.mem_insert_of_mem hi))

/-- A sum over a whole finite index type of real entries is real. -/
theorem isReal_sum_univ {ι : Type*} [Fintype ι] (f : ι → EReal) (hf : ∀ i, IsReal (f i)) : IsReal (∑ i, f i) :=
  isReal_sum _ f fun i _ => hf i

/-- A sum of real entries over the indices that satisfy a condition is real. -/
theorem isReal_sum_filter {ι : Type*} [Fintype ι] (p : ι → Prop) [DecidablePred p] (f : ι → EReal)
    (hf : ∀ i, IsReal (f i)) : IsReal (∑ i ∈ Finset.univ.filter p, f i) :=
  isReal_sum _ f fun i _ => hf i

/-- A real divided by a nonzero real is real: it is the product with the reciprocal. -/
theorem isReal_div {x : EReal} (hx : IsReal x) {y : ℝ} (hy : y ≠ 0) : IsReal (Ideal.div x (y : EReal)) := by
  rw [Ideal.div_coe hy]; exact isReal_mul hx (isReal_coe _)

/-- A real raised to a real power is real (the real power function is total). -/
theorem isReal_pow {x y : EReal} (hx : IsReal x) (hy : IsReal y) : IsReal (Ideal.pow x y) := by
  obtain ⟨a, rfl⟩ := hx; obtain ⟨b, rfl⟩ := hy; exact ⟨Real.rpow a b, Ideal.pow_coe_coe a b⟩

/-- The inverse square root of a positive real is real. -/
theorem isReal_rsqrt {r : ℝ} (hr : 0 < r) : IsReal (Ideal.rsqrt (r : EReal)) := by
  rw [Ideal.rsqrt_coe, if_neg (not_lt.mpr hr.le), if_neg hr.ne']; exact ⟨_, rfl⟩

/-- A choice between two real alternatives is real, whatever the deciding bit. -/
theorem isReal_select (c : BitVec 1) {x y : EReal} (hx : IsReal x) (hy : IsReal y) : IsReal (Scalar.select c x y) := by
  unfold Scalar.select; split_ifs <;> assumption

/-- An extended real whose absolute value is below +∞ is real. -/
theorem isReal_of_abs_lt_top {x : EReal} (h : max x (-x) < ⊤) : IsReal x := by
  rw [isReal_iff_ne]
  constructor
  · rintro rfl; simp at h
  · rintro rfl; simp at h

/-! ### The zero word -/

/-- The single-precision pattern of +0 is the real number 0. -/
theorem isReal_ofBits_zero_f32 : IsReal (Ideal.ofBits .f32 0x00000000#32) := by
  rw [Ideal.ofBits_zero_f32]; exact isReal_zero

/-! ### Through the host operations, at the exact instance -/

section Host

variable {φ : FTy}

/-- A gather reads the operand at an index computed from the start indices: real when the operand is. -/
theorem isReal_gather {s si t : Shape} {w : ℕ} (d : GatherDims s si t) (x : FVec Ideal s φ) (idx : IVec si w)
    (hx : ∀ i, IsReal (x i)) : ∀ j, IsReal (Host.gather d x idx j) :=
  fun j => hx (d.operandIdx j idx)

/-- An accumulating scatter is, at each element, the operand there plus the sum of the updates that land there:
    real when the operand and the updates are. -/
theorem isReal_scatterAdd {s si u : Shape} {w : ℕ} (d : ScatterDims s si u) (x : FVec Ideal s φ) (idx : IVec si w)
    (upd : FVec Ideal u φ) (hx : ∀ i, IsReal (x i)) (hu : ∀ j, IsReal (upd j)) :
    ∀ i, IsReal (Host.scatterAdd (F := Ideal) d x idx upd i) := by
  intro i
  show IsReal (Ideal.hostScatterAdd d x idx upd i)
  unfold Ideal.hostScatterAdd
  exact isReal_add (hx i) (isReal_sum _ _ fun j _ => hu j)

/-- A general dot product is, at each output index, the sum over the contracted index of the products of the two
    operands' entries: real when both operands are. -/
theorem isReal_dotGeneral {sl sr so : Shape} {φ₁ φ₂ : FTy} (D : DotDims sl sr so) (prec : Option ContractPrecision)
    (l : FVec Ideal sl φ₁) (r : FVec Ideal sr φ₂) (hl : ∀ i, IsReal (l i)) (hr : ∀ i, IsReal (r i)) :
    ∀ j, IsReal (Host.dotGeneral (F := Ideal) D prec l r j) := by
  intro j
  have h : Host.dotGeneral (F := Ideal) D prec l r j = ∑ k : D.contr.Idx, l (D.lhsIdx j k) * r (D.rhsIdx j k) :=
    Ideal.dotGeneral_apply D prec .single l r j
  rw [h]
  exact isReal_sum _ _ fun k _ => isReal_mul (hl _) (hr _)

/-- A sum-reduction is, at each reduced index, the initial value plus the sum of the entries that reduce to it: real
    when the operand and the initial value are. -/
theorem isReal_hostReduceAdd {s t u : Shape} {axes : List (Fin s.rank)} (x : FVec Ideal s φ) (init : u.Idx → Ideal φ)
    (h : s.ReducesTo axes t) (hu : 0 < u.numel) (hx : ∀ i, IsReal (x i)) (hinit : ∀ i, IsReal (init i)) :
    ∀ j, IsReal (Host.reduceAdd x init h hu j) := by
  intro j
  show IsReal (Ideal.hostReduceAdd h x (init (Shape.Idx.first hu)) j)
  unfold Ideal.hostReduceAdd
  exact isReal_add (hinit _) (isReal_sum _ _ fun i _ => hx i)

/-- The entrywise product of two real arrays is real. -/
theorem isReal_mulf {s : Shape} (x y : FVec Ideal s φ) (hx : ∀ i, IsReal (x i)) (hy : ∀ i, IsReal (y i)) :
    ∀ i, IsReal (mulf x y i) := fun i => isReal_mul (hx i) (hy i)

/-- The entrywise sum of two real arrays is real. -/
theorem isReal_addf {s : Shape} (x y : FVec Ideal s φ) (hx : ∀ i, IsReal (x i)) (hy : ∀ i, IsReal (y i)) :
    ∀ i, IsReal (addf x y i) := fun i => isReal_add (hx i) (hy i)

/-- The entrywise difference of two real arrays is real. -/
theorem isReal_subf {s : Shape} (x y : FVec Ideal s φ) (hx : ∀ i, IsReal (x i)) (hy : ∀ i, IsReal (y i)) :
    ∀ i, IsReal (subf x y i) := fun i => isReal_sub (hx i) (hy i)

/-- The entrywise power of two real arrays is real. -/
theorem isReal_hostPowf {s : Shape} (x y : FVec Ideal s φ) (hx : ∀ i, IsReal (x i)) (hy : ∀ i, IsReal (y i)) :
    ∀ i, IsReal (Host.powf x y i) := fun i => isReal_pow (hx i) (hy i)

/-- The entrywise choice between two real arrays is real, whatever the deciding bits. -/
theorem isReal_select_vec {s : Shape} (c : IVec s 1) (a b : FVec Ideal s φ) (ha : ∀ i, IsReal (a i))
    (hb : ∀ i, IsReal (b i)) : ∀ i, IsReal (select c a b i) := fun i => isReal_select (c i) (ha i) (hb i)

/-- A broadcast along chosen axes reads the operand at some index: real when the operand is (a scalar operand
    included). -/
theorem isReal_broadcastInDim {s t : Shape} (dims : Fin s.rank → Fin t.rank) (h : s.BroadcastsInDim t dims)
    (x : FVec Ideal s φ) (hx : ∀ i, IsReal (x i)) : ∀ j, IsReal (broadcastInDim t dims h x j) :=
  fun _ => hx _

/-- The splat of a real scalar is real everywhere. -/
theorem isReal_broadcast (t : Shape) {x : EReal} (hx : IsReal x) : ∀ j, IsReal (broadcast t x j) := fun _ => hx

/-- A constant array whose bit pattern denotes a real number is real everywhere. -/
theorem isReal_constant (s : Shape) (b : BitVec φ.bits) (hb : IsReal (Ideal.ofBits φ b)) :
    ∀ i, IsReal (constant (F := Ideal) s φ b i) := fun _ => hb

end Host

/-! ### Regrouping a long sum into blocks -/

/-- Position `s` of block `t`, among `m` blocks of `n`, is below `m * n`. -/
theorem block_lt {m n N : ℕ} (h : m * n = N) (t : Fin m) (s : Fin n) : n * t.val + s.val < N := by
  have ht := t.isLt
  have hs := s.isLt
  calc n * t.val + s.val < n * t.val + n := by omega
    _ = n * (t.val + 1) := by ring
    _ ≤ n * m := Nat.mul_le_mul_left n ht
    _ = N := by rw [Nat.mul_comm, h]

/-- A sum over `N = m * n` consecutive positions is the sum over the `m` blocks of the sums over the `n` positions
    of each block, in any commutative additive monoid. -/
theorem sum_blocks {M : Type*} [AddCommMonoid M] {N : ℕ} (m n : ℕ) (h : m * n = N) (f : Fin N → M) :
    ∑ r, f r = ∑ t : Fin m, ∑ s : Fin n, f ⟨n * t.val + s.val, block_lt h t s⟩ := by
  subst h
  rw [← Equiv.sum_comp finProdFinEquiv f, Fintype.sum_prod_type]
  refine Finset.sum_congr rfl fun t _ => Finset.sum_congr rfl fun s _ => congrArg f (Fin.ext ?_)
  simp only [finProdFinEquiv_apply_val]
  omega

/-- A sum over 50000 consecutive positions is the sum over 50 blocks of the sums over the 1000 positions of each. -/
theorem sum_blocks_50000 {M : Type*} [AddCommMonoid M] (f : Fin 50000 → M) :
    ∑ r, f r = ∑ t : Fin 50, ∑ s : Fin 1000, f ⟨1000 * t.val + s.val, by omega⟩ :=
  sum_blocks 50 1000 (by norm_num) f

end Cert.RealEntries

end
-- ==== Proof.VarLaw.lean ====
/- Why the two programs' normalizations agree. Both centre every column of the aggregate at the same mean; the
   kernel divides by the square root of (mean of squares − squared mean) + eps, the reference by the square root of
   (mean of squared deviations) + eps. On a column of real numbers a_1 … a_N with mean μ these are one number:
   Σ (a_i − μ)² = Σ a_i² − 2 μ Σ a_i + N μ² = Σ a_i² − N μ², since Σ a_i = N μ. With an infinite entry the
   identity fails (∞ − ∞), so the proof needs every entry of the aggregate to be real; it is, because the inputs
   are finite: the matrix product is a finite sum of products of reals, and gathers, scatter-adds of reals into
   zeros, a real power of a positive real, and selections among reals stay real. -/
import proofs.«153004_j65549790872161_1_alg».proof.Proof.Spec
import proofs.«153004_j65549790872161_1_alg».proof.Proof.LibRealEntries

noncomputable section

open scoped BigOperators

namespace Cert.VarLaw

open Idealize.ShloMosaic Idealize.ShloMosaic.ValueIdx Cert.RealEntries Cert.Bn

/-- On a matrix of real numbers, column `q`'s one-pass variance (mean of squares minus squared mean) is its two-pass
    variance (mean of squared deviations from the mean). -/
theorem var_eq (A : Mat 50000 128) (hA : ∀ i, IsReal (A i)) (q : Fin 128) :
    Ideal.div (colSumSq A q) ((50000 : ℝ) : EReal)
        - Ideal.div (colSum A q) ((50000 : ℝ) : EReal) * Ideal.div (colSum A q) ((50000 : ℝ) : EReal)
      = Ideal.div (∑ r : Fin 50000, (A (ix2 r q) - Ideal.div (colSum A q) ((50000 : ℝ) : EReal))
          * (A (ix2 r q) - Ideal.div (colSum A q) ((50000 : ℝ) : EReal))) ((50000 : ℝ) : EReal) :=
  variance_one_pass_eq_two_pass (50000 : ℝ) (by simp) (by norm_num) (fun r => A (ix2 r q)) (fun r => hA _)

/-- The product of two real matrices is real. -/
theorem mm_real (X : Mat 50000 128) (W : Mat 128 128) (hX : ∀ i, IsReal (X i)) (hW : ∀ i, IsReal (W i))
    (p : Fin 50000) (q : Fin 128) : IsReal (mmAt X W p q) :=
  isReal_sum_univ _ (fun k => isReal_mul (hX _) (hW _))

end Cert.VarLaw

end
-- ==== Proof.Consts.lean ====
/- The float constants the two programs spell, as the extended reals their single-precision words denote: the sign
   bit, the eight exponent bits and the twenty-three significand bits read off the word, and the resulting binary
   fraction evaluated. One module states them all, so that the reading of a word is unfolded in one place only. -/
import Idealize.ShloMosaic.PureOps.Ideal

noncomputable section

namespace Cert.Consts

open Idealize.ShloMosaic

/-- The word `0x47435000`: exponent field 142, significand field 4411392, so (2^23 + 4411392) · 2^(142 − 150) =
    12800000 / 256 = 50000, the number of rows. -/
theorem ofBits_50000 : Ideal.ofBits .f32 0x47435000#32 = ((50000 : ℝ) : EReal) := by
  simp [Ideal.ofBits, Ideal.ieee, -EReal.coe_mul]; norm_num

/-- The word `0x3F800000`: exponent field 127, significand field 0, so 2^23 · 2^(127 − 150) = 1. -/
theorem ofBits_one : Ideal.ofBits .f32 0x3F800000#32 = ((1 : ℝ) : EReal) := by
  simp [Ideal.ofBits, Ideal.ieee, -EReal.coe_mul]; norm_num

/-- The word `0xBF000000`: sign bit set, exponent field 126, significand field 0, so −2^23 · 2^(126 − 150) = −1/2. -/
theorem ofBits_neg_half : Ideal.ofBits .f32 0xBF000000#32 = ((-(1 / 2) : ℝ) : EReal) := by
  simp [Ideal.ofBits, Ideal.ieee, -EReal.coe_mul, -EReal.coe_neg]; norm_num

/-- The word `0x7F800000`: sign bit clear, exponent field all ones, significand field 0: positive infinity. -/
theorem ofBits_inf : Ideal.ofBits .f32 0x7F800000#32 = (⊤ : EReal) := by simp [Ideal.ofBits, Ideal.ieee]

end Cert.Consts

end
-- ==== Proof.PreReal.lean ====
/- From the certificate's precondition — every float input array has all its entries of absolute value strictly below
   +∞ — to the statement that every entry of every float input is a real number. -/
import proofs.«153004_j65549790872161_1_alg».proof.Pre_finite_inputs
import proofs.«153004_j65549790872161_1_alg».proof.Proof.Gen.Pre_finite_inputs
import proofs.«153004_j65549790872161_1_alg».proof.Proof.LibRealEntries
import proofs.«153004_j65549790872161_1_alg».proof.Proof.Consts
import Idealize.ShloMosaic.Lib.ReduceAll
import Idealize.ShloMosaic.Lib.ValueIdx

noncomputable section

namespace Cert.PreReal

open Idealize.ShloMosaic Cert.RealEntries Cert.Pre_finite_inputs

/-- The shape with no axes has exactly one index. -/
instance : Subsingleton S_.Idx := ⟨fun a b => funext fun d => d.elim0⟩

/-- An extended real whose absolute value tests strictly below +∞ is a real number. -/
theorem isReal_of_cmp_abs_lt {a T : EReal} (hT : T = ⊤) (h : Ideal.cmp .olt (max a (-a)) T = 1#1) : IsReal a := by
  subst hT
  by_cases hlt : max a (-a) < ⊤
  · exact isReal_of_abs_lt_top hlt
  · exfalso
    simp [Ideal.cmp, hlt] at h

/-- If the conjunction, over all entries of an array, of the tests "absolute value strictly below +∞" is true, then
    every entry of the array is a real number. -/
theorem isReal_of_all_finite {s : Shape} {axes : List (Fin s.rank)} (x : FVec Ideal s .f32)
    (hb : S_.BroadcastsInDim s (![] : Fin 0 → Fin s.rank)) (hr : s.ReducesTo axes S_) (hu : 0 < S_.numel)
    (htop : Ideal.ofBits .f32 0x7F800000#32 = ⊤) (j : S_.Idx)
    (e : Host.reduce IntOp.andi (cmpf .olt (Host.absf x) (broadcastInDim s ![] hb (constant S_ .f32 0x7F800000#32)))
          (constantI S_ 1 1#1) hr hu j = 1#1) :
    ∀ i, IsReal (x i) := by
  intro i
  have h1 := Host.reduce_andi_all _ _ hr hu j e i
  have h2 : Ideal.cmp .olt (max (x i) (-(x i))) (Ideal.ofBits .f32 0x7F800000#32) = 1#1 := h1
  exact isReal_of_cmp_abs_lt htop h2

/-- The precondition, read entry by entry: every entry of the node features, of the weight matrix, of the bias and of
    the two normalization vectors is a real number (given that the all-ones-exponent word with zero fraction is +∞). -/
theorem real_of_pre_of_top [Facts] (htop : Ideal.ofBits .f32 0x7F800000#32 = ⊤)
    (x : FVec Ideal S50000x128 .f32) (e : IVec S2x800000 32) (w : FVec Ideal S128x128 .f32)
    (b g be : FVec Ideal S128 .f32) (h : fn (F := Ideal) x e w b g be = fun _ => 1#1) :
    (∀ i, IsReal (x i)) ∧ (∀ i, IsReal (w i)) ∧ (∀ i, IsReal (b i)) ∧ (∀ i, IsReal (g i)) ∧ (∀ i, IsReal (be i)) := by
  have h0 := congrFun h ValueIdx.ix0
  dsimp only [fn, fn_part1] at h0
  simp only [Idealize.ShloMosaic.andi, IntOp.andi_eq_one] at h0
  obtain ⟨⟨⟨⟨h1, h2⟩, h3⟩, h4⟩, h5⟩ := h0
  exact ⟨isReal_of_all_finite x _ _ _ htop _ h1, isReal_of_all_finite w _ _ _ htop _ h2,
    isReal_of_all_finite b _ _ _ htop _ h3, isReal_of_all_finite g _ _ _ htop _ h4,
    isReal_of_all_finite be _ _ _ htop _ h5⟩

/-- The precondition, read entry by entry: every entry of the node features, of the weight matrix, of the bias and of
    the two normalization vectors is a real number. -/
theorem real_of_pre [Facts] (x : FVec Ideal S50000x128 .f32) (e : IVec S2x800000 32) (w : FVec Ideal S128x128 .f32)
    (b g be : FVec Ideal S128 .f32) (h : fn (F := Ideal) x e w b g be = fun _ => 1#1) :
    (∀ i, IsReal (x i)) ∧ (∀ i, IsReal (w i)) ∧ (∀ i, IsReal (b i)) ∧ (∀ i, IsReal (g i)) ∧ (∀ i, IsReal (be i)) :=
  real_of_pre_of_top Cert.Consts.ofBits_inf x e w b g be h

end Cert.PreReal

end
-- ==== Proof.KHost.lean ====
/- The host operations around the three launches, as pure functions of what they read. Before the first launch the
   entry point appends a self loop for every node to the edge list and splits it into source nodes (`rowK`) and target
   nodes (`colK`); counts each node's edges by a scatter-add of ones (its degree, at least one because of the loop);
   raises the degree to the power minus one half where it is positive (`dinvK`); and gives each edge the product of
   that value at its two ends (`normK`). After the first launch one aggregation step (`aggStep`) gathers, for each
   edge, the target node's row of the product matrix, scales it by the edge's value, scatter-adds it into the source
   node's row, and adds the bias row. After the second launch the column sums and sums of squares become the column
   mean (`meanVec`: sum over 50000) and the one-pass variance (`varVec`: mean square minus squared mean). -/
import proofs.«153004_j65549790872161_1_alg».proof.Proof.Gen.KernelIdeal.Frame
import Idealize.ShloMosaic.Lib.StableHlo.Run
import Idealize.ShloMosaic.Lib.Tactic

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-- The source node of every edge, the self loops appended. -/
def rowK (E : (⟨S2x800000, .i32⟩ : BufTy).Contents (Elt F)) : (⟨S850000, .i32⟩ : BufTy).Contents (Elt F) :=
  (shapeCast S850000 (((extractStridedSlice S1x850000 ![0, 0] · slices_S2x850000_S1x850000_0_0) : (⟨S2x850000, .i32⟩ : BufTy).Contents (Elt F) → (⟨S1x850000, .i32⟩ : BufTy).Contents (Elt F)) (((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)) E (shapeCast S2x50000 ((broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)) (shapeCast S1x1x1x50000 ((broadcastInDim S1x50000 ![1] bcast_S50000_S1x50000_1 : (⟨S50000, .i32⟩ : BufTy).Contents (Elt F) → (⟨S1x50000, .i32⟩ : BufTy).Contents (Elt F)) (iotaInDim S50000 32 0)) shapeCasts_S1x50000_S1x1x1x50000)) shapeCasts_S2x1x1x50000_S2x50000))) shapeCasts_S1x850000_S850000)

/-- The target node of every edge, the self loops appended. -/
def colK (E : (⟨S2x800000, .i32⟩ : BufTy).Contents (Elt F)) : (⟨S850000, .i32⟩ : BufTy).Contents (Elt F) :=
  (shapeCast S850000 (((extractStridedSlice S1x850000 ![1, 0] · slices_S2x850000_S1x850000_1_0) : (⟨S2x850000, .i32⟩ : BufTy).Contents (Elt F) → (⟨S1x850000, .i32⟩ : BufTy).Contents (Elt F)) (((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)) E (shapeCast S2x50000 ((broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)) (shapeCast S1x1x1x50000 ((broadcastInDim S1x50000 ![1] bcast_S50000_S1x50000_1 : (⟨S50000, .i32⟩ : BufTy).Contents (Elt F) → (⟨S1x50000, .i32⟩ : BufTy).Contents (Elt F)) (iotaInDim S50000 32 0)) shapeCasts_S1x50000_S1x1x1x50000)) shapeCasts_S2x1x1x50000_S2x50000))) shapeCasts_S1x850000_S850000)

/-- Per node: its degree (edges it is the source of) to the power minus one half where the degree is positive, else zero. -/
def dinvK (E : (⟨S2x800000, .i32⟩ : BufTy).Contents (Elt F)) : (⟨S50000, .f32⟩ : BufTy).Contents (Elt F) :=
  (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) (rowK E)) ((broadcastInDim S850000 ![] bcast_S_S850000 : (⟨S_, .f32⟩ : BufTy).Contents (Elt F) → (⟨S850000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.powf : (⟨S50000, .f32⟩ : BufTy).Contents (Elt F) → (⟨S50000, .f32⟩ : BufTy).Contents (Elt F) → (⟨S50000, .f32⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) (rowK E)) ((broadcastInDim S850000 ![] bcast_S_S850000 : (⟨S_, .f32⟩ : BufTy).Contents (Elt F) → (⟨S850000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0xBF000000#32))) ((broadcastInDim S50000 ![] bcast_S_S50000) (id (constant S_ .f32 0x00000000#32))))

/-- Per edge: the product of that value at its source and at its target (a negative node number counts from the end). -/
def normK (E : (⟨S2x800000, .i32⟩ : BufTy).Contents (Elt F)) : (⟨S850000, .f32⟩ : BufTy).Contents (Elt F) :=
  ((mulf : (⟨S850000, .f32⟩ : BufTy).Contents (Elt F) → (⟨S850000, .f32⟩ : BufTy).Contents (Elt F) → (⟨S850000, .f32⟩ : BufTy).Contents (Elt F)) ((mulf : (⟨S850000, .f32⟩ : BufTy).Contents (Elt F) → (⟨S850000, .f32⟩ : BufTy).Contents (Elt F) → (⟨S850000, .f32⟩ : BufTy).Contents (Elt F)) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinvK E) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (rowK E) ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) (rowK E) ((broadcastInDim S850000 ![] bcast_S_S850000 : (⟨S_, .i32⟩ : BufTy).Contents (Elt F) → (⟨S850000, .i32⟩ : BufTy).Contents (Elt F)) (constantI S_ 32 50000#32))) (rowK E)))) ((broadcastInDim S850000 ![] bcast_S_S850000 : (⟨S_, .f32⟩ : BufTy).Contents (Elt F) → (⟨S850000, .f32⟩ : BufTy).Contents (Elt F)) (constant S_ .f32 0x3F800000#32))) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinvK E) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (colK E) ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) (colK E) ((broadcastInDim S850000 ![] bcast_S_S850000 : (⟨S_, .i32⟩ : BufTy).Contents (Elt F) → (⟨S850000, .i32⟩ : BufTy).Contents (Elt F)) (constantI S_ 32 50000#32))) (colK E)))))

/-- One aggregation step: gather the target's row of `xw` per edge, scale by the edge's value, add into the source's
    row, add the bias row. -/
def aggStep (xw : (⟨S50000x128, .f32⟩ : BufTy).Contents (Elt F)) (nrm : (⟨S850000, .f32⟩ : BufTy).Contents (Elt F)) (row col : (⟨S850000, .i32⟩ : BufTy).Contents (Elt F))
    (b : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) row) ((mulf : (⟨S850000x128, .f32⟩ : BufTy).Contents (Elt F) → (⟨S850000x128, .f32⟩ : BufTy).Contents (Elt F) → (⟨S850000x128, .f32⟩ : BufTy).Contents (Elt F)) (((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) xw ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) col ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) col ((broadcastInDim S850000 ![] bcast_S_S850000 : (⟨S_, .i32⟩ : BufTy).Contents (Elt F) → (⟨S850000, .i32⟩ : BufTy).Contents (Elt F)) (constantI S_ 32 50000#32))) col))) ((broadcastInDim S850000x128 ![0, 1] bcast_S850000x1_S850000x128_0_1 : (⟨S850000x1, .f32⟩ : BufTy).Contents (Elt F) → (⟨S850000x128, .f32⟩ : BufTy).Contents (Elt F)) ((broadcastInDim S850000x1 ![0] bcast_S850000_S850000x1_0 : (⟨S850000, .f32⟩ : BufTy).Contents (Elt F) → (⟨S850000x1, .f32⟩ : BufTy).Contents (Elt F)) nrm)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- The aggregate plus bias, as a function of the product matrix, the edge list and the bias. -/
def aggK (xw : (⟨S50000x128, .f32⟩ : BufTy).Contents (Elt F)) (E : (⟨S2x800000, .i32⟩ : BufTy).Contents (Elt F)) (b : (⟨S128, .f32⟩ : BufTy).Contents (Elt F)) : (⟨S50000x128, .f32⟩ : BufTy).Contents (Elt F) :=
  aggStep xw (normK E) (rowK E) (colK E) b

/-- The column means from the column sums: divide by the number of rows. -/
def meanVec (s1 : (⟨S1x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (shapeCast S128 s1 shapeCasts_S1x128_S128) ((broadcastInDim S128 ![] bcast_S_S128 : (⟨S_, .f32⟩ : BufTy).Contents (Elt F) → (⟨S128, .f32⟩ : BufTy).Contents (Elt F)) (constant S_ .f32 0x47435000#32)))

/-- The one-pass column variances: the mean of the squares minus the square of the mean. -/
def varVec (s1 s2 : (⟨S1x128, .f32⟩ : BufTy).Contents (Elt F)) : (⟨S128, .f32⟩ : BufTy).Contents (Elt F) :=
  ((subf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (shapeCast S128 s2 shapeCasts_S1x128_S128) ((broadcastInDim S128 ![] bcast_S_S128 : (⟨S_, .f32⟩ : BufTy).Contents (Elt F) → (⟨S128, .f32⟩ : BufTy).Contents (Elt F)) (constant S_ .f32 0x47435000#32))) ((mulf : (⟨S128, .f32⟩ : BufTy).Contents (Elt F) → (⟨S128, .f32⟩ : BufTy).Contents (Elt F) → (⟨S128, .f32⟩ : BufTy).Contents (Elt F)) (meanVec s1) (meanVec s1)))

variable (V : Valuation τ sig (Elt F))

/-! ## Before the first launch -/

theorem pre_row : StableHlo.after hostOps0_2 (StableHlo.after hostOps0_1 (StableHlo.after hostOps0 V)) (Proc.devRef .tc main_v7) = rowK (V (Proc.devRef .tc main_arg1)) := by after_results; rfl
theorem pre_col : StableHlo.after hostOps0_2 (StableHlo.after hostOps0_1 (StableHlo.after hostOps0 V)) (Proc.devRef .tc main_v9) = colK (V (Proc.devRef .tc main_arg1)) := by after_results; rfl
attribute [local irreducible] Host.gather Host.scatterAdd Host.powf concatenate extractStridedSlice iotaInDim in
set_option maxHeartbeats 4000000 in
theorem pre_norm : StableHlo.after hostOps0_2 (StableHlo.after hostOps0_1 (StableHlo.after hostOps0 V)) (Proc.devRef .tc main_v34) = normK (V (Proc.devRef .tc main_arg1)) := by after_results; rfl
theorem pre_arg0 : StableHlo.after hostOps0_2 (StableHlo.after hostOps0_1 (StableHlo.after hostOps0 V)) (Proc.devRef .tc main_arg0) = V (Proc.devRef .tc main_arg0) := by after_results
theorem pre_arg2 : StableHlo.after hostOps0_2 (StableHlo.after hostOps0_1 (StableHlo.after hostOps0 V)) (Proc.devRef .tc main_arg2) = V (Proc.devRef .tc main_arg2) := by after_results
theorem pre_arg3 : StableHlo.after hostOps0_2 (StableHlo.after hostOps0_1 (StableHlo.after hostOps0 V)) (Proc.devRef .tc main_arg3) = V (Proc.devRef .tc main_arg3) := by after_results
theorem pre_arg4 : StableHlo.after hostOps0_2 (StableHlo.after hostOps0_1 (StableHlo.after hostOps0 V)) (Proc.devRef .tc main_arg4) = V (Proc.devRef .tc main_arg4) := by after_results
theorem pre_arg5 : StableHlo.after hostOps0_2 (StableHlo.after hostOps0_1 (StableHlo.after hostOps0 V)) (Proc.devRef .tc main_arg5) = V (Proc.devRef .tc main_arg5) := by after_results

/-! ## Between the first and the second launch -/

attribute [local irreducible] Host.gather Host.scatterAdd Host.powf concatenate extractStridedSlice iotaInDim in
set_option maxHeartbeats 4000000 in
theorem step_eq : StableHlo.after hostOps1 V (Proc.devRef .tc main_v51)
    = aggStep (V (Proc.devRef .tc main_v35)) (V (Proc.devRef .tc main_v34)) (V (Proc.devRef .tc main_v7)) (V (Proc.devRef .tc main_v9)) (V (Proc.devRef .tc main_arg3)) := by
  after_results; rfl
theorem step_arg0 : StableHlo.after hostOps1 V (Proc.devRef .tc main_arg0) = V (Proc.devRef .tc main_arg0) := by after_results
theorem step_arg4 : StableHlo.after hostOps1 V (Proc.devRef .tc main_arg4) = V (Proc.devRef .tc main_arg4) := by after_results
theorem step_arg5 : StableHlo.after hostOps1 V (Proc.devRef .tc main_arg5) = V (Proc.devRef .tc main_arg5) := by after_results

/-! ## Between the second and the third launch -/

theorem post_mean : StableHlo.after hostOps2 V (Proc.devRef .tc main_v61) = shapeCast S1x128 (meanVec (V (Proc.devRef .tc main_v52_0))) shapeCasts_S128_S1x128 := by
  after_results; rfl
theorem post_var : StableHlo.after hostOps2 V (Proc.devRef .tc main_v62) = shapeCast S1x128 (varVec (V (Proc.devRef .tc main_v52_0)) (V (Proc.devRef .tc main_v52_1))) shapeCasts_S128_S1x128 := by
  after_results; rfl
theorem post_scale : StableHlo.after hostOps2 V (Proc.devRef .tc main_v63) = shapeCast S1x128 (V (Proc.devRef .tc main_arg4)) shapeCasts_S128_S1x128 := by
  after_results; rfl
theorem post_shift : StableHlo.after hostOps2 V (Proc.devRef .tc main_v64) = shapeCast S1x128 (V (Proc.devRef .tc main_arg5)) shapeCasts_S128_S1x128 := by
  after_results; rfl
theorem post_agg : StableHlo.after hostOps2 V (Proc.devRef .tc main_v51) = V (Proc.devRef .tc main_v51) := by after_results
theorem post_arg0 : StableHlo.after hostOps2 V (Proc.devRef .tc main_arg0) = V (Proc.devRef .tc main_arg0) := by after_results

end Cert.KernelIdeal.KHost

end
-- ==== Proof.AggReal.lean ====
/- The aggregate — for every node, the sum over its edges (a self loop included) of the edge's weight times the
   neighbour's row of the product matrix, plus the bias row — has only real entries when the product matrix and the
   bias have. The edge weight is the product of (degree)^(-1/2) at the edge's two ends; the degree is a finite sum of
   ones, a real number; a real number to the power -1/2 is a real number (the real power function is total); and the
   aggregate is then built from real numbers by finite sums and products only. No property of the edge list is used. -/
import proofs.«153004_j65549790872161_1_alg».proof.Proof.KHost
import proofs.«153004_j65549790872161_1_alg».proof.Proof.LibRealEntries
import proofs.«153004_j65549790872161_1_alg».proof.Proof.Consts

noncomputable section

namespace Cert.KernelIdeal.AggReal

open Cert.KernelIdeal Cert.KernelIdeal.Gen Cert.KernelIdeal.KHost Cert.RealEntries
open Idealize.ShloMosaic

/-- The word of zero is a real number. -/
theorem zero_real : IsReal (Ideal.ofBits .f32 0x00000000#32) := isReal_ofBits_zero_f32

/-- The word of one is a real number. -/
theorem one_real : IsReal (Ideal.ofBits .f32 0x3F800000#32) := ⟨_, Cert.Consts.ofBits_one⟩

/-- The word of minus one half is a real number. -/
theorem neg_half_real : IsReal (Ideal.ofBits .f32 0xBF000000#32) := ⟨_, Cert.Consts.ofBits_neg_half⟩

/-- Per node, (degree)^(-1/2) where the degree is positive and zero elsewhere is a real number: the degree is a sum of
    ones added to zero, its power with the real exponent -1/2 is real, and the alternative is the real zero. -/
theorem dinvK_real (E : IVec S2x800000 32) : ∀ i, IsReal (dinvK (F := Ideal) E i) := by
  unfold dinvK
  beta_reduce
  apply isReal_select_vec (φ := .f32)
  · apply isReal_hostPowf (φ := .f32)
    · apply isReal_scatterAdd (φ := .f32)
      · exact isReal_broadcastInDim (φ := .f32) _ _ _ (isReal_constant (φ := .f32) _ _ zero_real)
      · exact isReal_broadcastInDim (φ := .f32) _ _ _ (isReal_constant (φ := .f32) _ _ one_real)
    · exact isReal_broadcastInDim (φ := .f32) _ _ _ (isReal_constant (φ := .f32) _ _ neg_half_real)
  · exact isReal_broadcastInDim (φ := .f32) _ _ _ (isReal_constant (φ := .f32) _ _ zero_real)

/-- Per edge, the weight — the product of the per-node value at the edge's source, of one, and of the per-node value at
    the edge's target — is a real number. -/
theorem normK_real (E : IVec S2x800000 32) : ∀ i, IsReal (normK (F := Ideal) E i) := by
  unfold normK
  beta_reduce
  apply isReal_mulf (φ := .f32)
  · apply isReal_mulf (φ := .f32)
    · exact isReal_gather (φ := .f32) _ _ _ (dinvK_real E)
    · exact isReal_broadcastInDim (φ := .f32) _ _ _ (isReal_constant (φ := .f32) _ _ one_real)
  · exact isReal_gather (φ := .f32) _ _ _ (dinvK_real E)

/-- One aggregation step maps a real matrix, real edge weights and a real bias to a real matrix, whatever the two index
    vectors: each entry is zero plus a finite sum of products of a gathered entry and a weight, plus a bias entry. -/
theorem aggStep_real (xw : FVec Ideal S50000x128 .f32) (nrm : FVec Ideal S850000 .f32) (row col : IVec S850000 32)
    (b : FVec Ideal S128 .f32) (hxw : ∀ i, IsReal (xw i)) (hn : ∀ i, IsReal (nrm i)) (hb : ∀ i, IsReal (b i)) :
    ∀ i, IsReal (aggStep (F := Ideal) xw nrm row col b i) := by
  unfold aggStep
  beta_reduce
  apply isReal_addf (φ := .f32)
  · apply isReal_scatterAdd (φ := .f32)
    · exact isReal_broadcastInDim (φ := .f32) _ _ _ (isReal_constant (φ := .f32) _ _ zero_real)
    · apply isReal_mulf (φ := .f32)
      · exact isReal_gather (φ := .f32) _ _ _ hxw
      · exact isReal_broadcastInDim (φ := .f32) _ _ _ (isReal_broadcastInDim (φ := .f32) _ _ _ hn)
  · exact isReal_broadcastInDim (φ := .f32) _ _ _ (isReal_broadcastInDim (φ := .f32) _ _ _ hb)

/-- The aggregate plus bias has only real entries when the product matrix and the bias have, whatever the edge list. -/
theorem aggK_real (xw : FVec Ideal S50000x128 .f32) (E : IVec S2x800000 32) (b : FVec Ideal S128 .f32)
    (hxw : ∀ i, IsReal (xw i)) (hb : ∀ i, IsReal (b i)) : ∀ i, IsReal (aggK (F := Ideal) xw E b i) := by
  unfold aggK
  exact aggStep_real xw _ _ _ b hxw (normK_real E) hb

end Cert.KernelIdeal.AggReal

end
-- ==== Proof.Reads.lean ====
/- Two programs' host-side operations read at one entry, over the extended reals. The reference's matrix product of
   the 50000 × 128 feature matrix with the 128 × 128 weight matrix, at entry (p, q), is the sum over the shared
   coordinate k of feature (p, k) times weight (k, q). The kernel's column mean and one-pass column variance, stored as
   1 × 128 rows, at (0, q): the column sum over 50000, and the column sum of squares over 50000 minus the square of
   the mean. -/
import proofs.«153004_j65549790872161_1_alg».proof.ReferenceIdeal
import proofs.«153004_j65549790872161_1_alg».proof.Proof.Gen.ReferenceIdeal
import proofs.«153004_j65549790872161_1_alg».proof.Proof.Spec
import Idealize.ShloMosaic.PureOps.Ideal.Laws
import Idealize.ShloMosaic.Lib.ValueIdx
import proofs.«153004_j65549790872161_1_alg».proof.Proof.KHost
import proofs.«153004_j65549790872161_1_alg».proof.Proof.Consts
import Idealize.ShloMosaic.Lib.Pipeline.Value
import Idealize.ShloMosaic.Lib.ValueLayout

noncomputable section

namespace Cert.Reads

open Idealize.ShloMosaic Idealize.ShloMosaic.ValueIdx
open scoped BigOperators

/-! ## The reference's matrix product at an entry -/

section RefDot
open Cert.ReferenceIdeal

/-- The reference product's dimension numbers: contract the left factor's columns with the right factor's rows. -/
abbrev DR : DotDims S50000x128 S128x128 S50000x128 := dot_S50000x128_S128x128_S50000x128_1_0_0_1_n_n

/-- The sum over the contraction index of the 50000 × 128 by 128 × 128 product at `(p, q)`, re-indexed by the one
    contracted coordinate: the sum over `k` of left `(p, k)` times right `(k, q)`. -/
theorem ref_contract_eq (X : FVec Ideal S50000x128 .f32) (W : FVec Ideal S128x128 .f32) (p : Fin 50000) (q : Fin 128) :
    ∑ k : DR.contr.Idx, X (DR.lhsIdx (ix2 p q) k) * W (DR.rhsIdx (ix2 p q) k)
      = ∑ k : Fin 128, X (ix2 p k) * W (ix2 k q) := by
  rw [← Equiv.sum_comp (contrEquiv1 DR 128 rfl rfl).symm]
  refine Finset.sum_congr rfl fun c _ => ?_
  have c2 := contrEquiv1_symm_val DR 128 rfl rfl c
  have l2 : DR.lhsIdx (ix2 p q) ((contrEquiv1 DR 128 rfl rfl).symm c) = ix2 p c := by
    funext ax; apply Fin.ext
    match ax with
    | ⟨0, _⟩ => simp [DotDims.lhsIdx, DR, dot_S50000x128_S128x128_S50000x128_1_0_0_1_n_n]; rfl
    | ⟨1, _⟩ => exact (DotDims.lhsIdx_val_of_single DR (cl := 1) rfl (ix2 p q) _).trans c2
  have r2 : DR.rhsIdx (ix2 p q) ((contrEquiv1 DR 128 rfl rfl).symm c) = ix2 c q := by
    funext ax; apply Fin.ext
    match ax with
    | ⟨0, _⟩ => exact (DotDims.rhsIdx_val_of_single DR (cr := 0) rfl (ix2 p q) _).trans c2
    | ⟨1, _⟩ => simp [DotDims.rhsIdx, DR, dot_S50000x128_S128x128_S50000x128_1_0_0_1_n_n]; rfl
  rw [l2, r2]

/-- The reference's `dot_general` of the features with the weights, at entry `(p, q)`, is the matrix product's entry. -/
theorem ref_dot_apply (X : FVec Ideal Cert.ReferenceIdeal.S50000x128 .f32) (W : FVec Ideal Cert.ReferenceIdeal.S128x128 .f32)
    (p : Fin 50000) (q : Fin 128) :
    Host.dotGeneral (F := Ideal) Cert.ReferenceIdeal.dot_S50000x128_S128x128_S50000x128_1_0_0_1_n_n none X W (ValueIdx.ix2 p q)
      = Cert.Bn.mmAt X W p q := by
  simp only [Host.dotGeneral]
  rw [Ideal.dotGeneral_apply]
  exact ref_contract_eq X W p q

end RefDot

/-! ## Rows of 128 numbers read at a column -/

section Rows
open Cert.KernelIdeal Cert.KernelIdeal.Gen

/-- A vector of 128 numbers viewed as a 1 × 128 row reads, at `(0, q)`, its entry `q`. -/
theorem row_apply (g : FVec Ideal Cert.KernelIdeal.S128 .f32) (q : Fin 128) :
    shapeCast Cert.KernelIdeal.S1x128 g Cert.KernelIdeal.Gen.shapeCasts_S128_S1x128 (ValueIdx.ix2 (0 : Fin 1) q) = g (ValueIdx.ix1 q) := by
  refine (shapeCast_addUnit_apply ![128] g _ (ix2 (0 : Fin 1) q)).trans ?_
  refine congrArg g ?_
  funext a
  match a with
  | ⟨0, _⟩ => rfl

/-- A 1 × 128 row viewed as a vector of 128 numbers reads, at `q`, the row's entry `(0, q)`. -/
theorem unrow_apply (s : FVec Ideal Cert.KernelIdeal.S1x128 .f32) (q : Fin 128) :
    shapeCast Cert.KernelIdeal.S128 s Cert.KernelIdeal.Gen.shapeCasts_S1x128_S128 (ValueIdx.ix1 q) = s (ValueIdx.ix2 (0 : Fin 1) q) := by
  refine (shapeCast_dropUnit_apply ![128] s _ (ix1 q)).trans ?_
  refine congrArg s ?_
  funext a
  match a with
  | ⟨0, _⟩ => rfl
  | ⟨1, _⟩ => rfl

/-- The column mean at `q`: the column sum divided by the number of rows. -/
theorem meanVec_apply (s1 : FVec Ideal Cert.KernelIdeal.S1x128 .f32) (q : Fin 128) :
    Cert.KernelIdeal.KHost.meanVec (F := Ideal) s1 (ValueIdx.ix1 q) = Ideal.div (s1 (ValueIdx.ix2 (0 : Fin 1) q)) ((50000 : ℝ) : EReal) := by
  unfold Cert.KernelIdeal.KHost.meanVec
  show Ideal.div (shapeCast S128 s1 shapeCasts_S1x128_S128 (ix1 q)) (Ideal.ofBits .f32 0x47435000#32) = _
  exact congrArg₂ Ideal.div (unrow_apply s1 q) Cert.Consts.ofBits_50000

/-- The column mean, stored as a 1 × 128 row, at `(0, q)`. -/
theorem mean_apply (s1 : FVec Ideal Cert.KernelIdeal.S1x128 .f32) (q : Fin 128) :
    shapeCast Cert.KernelIdeal.S1x128 (Cert.KernelIdeal.KHost.meanVec (F := Ideal) s1) Cert.KernelIdeal.Gen.shapeCasts_S128_S1x128 (ValueIdx.ix2 (0 : Fin 1) q)
      = Ideal.div (s1 (ValueIdx.ix2 (0 : Fin 1) q)) ((50000 : ℝ) : EReal) :=
  (row_apply _ q).trans (meanVec_apply s1 q)

/-- The one-pass column variance, stored as a 1 × 128 row, at `(0, q)`: the sum of squares over the number of rows,
    minus the square of the mean. -/
theorem var_apply (s1 s2 : FVec Ideal Cert.KernelIdeal.S1x128 .f32) (q : Fin 128) :
    shapeCast Cert.KernelIdeal.S1x128 (Cert.KernelIdeal.KHost.varVec (F := Ideal) s1 s2) Cert.KernelIdeal.Gen.shapeCasts_S128_S1x128 (ValueIdx.ix2 (0 : Fin 1) q)
      = Ideal.div (s2 (ValueIdx.ix2 (0 : Fin 1) q)) ((50000 : ℝ) : EReal)
        - Ideal.div (s1 (ValueIdx.ix2 (0 : Fin 1) q)) ((50000 : ℝ) : EReal) * Ideal.div (s1 (ValueIdx.ix2 (0 : Fin 1) q)) ((50000 : ℝ) : EReal) := by
  refine (row_apply _ q).trans ?_
  unfold Cert.KernelIdeal.KHost.varVec
  show Ideal.div (shapeCast S128 s2 shapeCasts_S1x128_S128 (ix1 q)) (Ideal.ofBits .f32 0x47435000#32)
      - Cert.KernelIdeal.KHost.meanVec (F := Ideal) s1 (ix1 q) * Cert.KernelIdeal.KHost.meanVec (F := Ideal) s1 (ix1 q) = _
  exact congrArg₂ (· - ·) (congrArg₂ Ideal.div (unrow_apply s2 q) Cert.Consts.ofBits_50000)
    (congrArg₂ (· * ·) (meanVec_apply s1 q) (meanVec_apply s1 q))

end Rows

end Cert.Reads

end
-- ==== Proof.KRun.lean ====
/- The idealized kernel's run with its result named. Its entry point is three kernel launches among stretches of
   host operations; the contents of every buffer at each boundary are a fold from the launch memory (host stretches
   apply their operations, a launch replaces its arrays by what its write-backs leave). Every weakly fair execution
   terminates without a fault, the result buffer holds the last boundary's contents, and the arguments are unchanged. -/
import proofs.«153004_j65549790872161_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the entry point terminates, nothing faulting;
    the result buffer ends at the contents the last launch leaves, and the six arguments end as launched. -/
theorem run : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.Matmul.lean ====
/- The first launch, read as one function of the arrays it finds: the product of the 50000 × 128 feature matrix with
   the 128 × 128 weight matrix, computed 1000 rows at a time. Point `t` of the 50-point grid reads rows
   1000·t … 1000·t + 999 of the features and the whole weight matrix, multiplies them into a zero accumulator, and
   writes the same rows of the result. Entry `(r, q)` of a product depends only on row `r` of the left factor, so the
   50 blocks are the restrictions of the one whole product, and they tile the result. (The narrowing of both factors
   to a shorter float format before the product is the identity on extended reals.) -/
import proofs.«153004_j65549790872161_1_alg».proof.Proof.Gen.KernelIdeal.Frame
import proofs.«153004_j65549790872161_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Matmul

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block product's dimension numbers: contract the left factor's columns with the right factor's rows. -/
abbrev D0 : DotDims S1000x128 S128x128 S1000x128 := dot_S1000x128_S128x128_S1000x128_1_0_0_1_n_n

/-- The sum over the contraction index of a 1000 × 128 by 128 × 128 product at `(p, q)`, re-indexed by the one
    contracted coordinate: the sum over `k` of left `(p, k)` times right `(k, q)`. -/
theorem contract_eq (x : FVec Ideal S1000x128 .bf16) (w : FVec Ideal S128x128 .bf16) (p : Fin 1000) (q : Fin 128) :
    ∑ k : D0.contr.Idx, x (D0.lhsIdx (ix2 p q) k) * w (D0.rhsIdx (ix2 p q) k)
      = ∑ k : Fin 128, x (ix2 p k) * w (ix2 k q) := by
  rw [← Equiv.sum_comp (contrEquiv1 D0 128 rfl rfl).symm]
  refine Finset.sum_congr rfl fun c _ => ?_
  have c2 := contrEquiv1_symm_val D0 128 rfl rfl c
  have l2 : D0.lhsIdx (ix2 p q) ((contrEquiv1 D0 128 rfl rfl).symm c) = ix2 p c := by
    funext ax; apply Fin.ext
    match ax with
    | ⟨0, _⟩ => simp [DotDims.lhsIdx, D0, dot_S1000x128_S128x128_S1000x128_1_0_0_1_n_n]; rfl
    | ⟨1, _⟩ => exact (DotDims.lhsIdx_val_of_single D0 (cl := 1) rfl (ix2 p q) _).trans c2
  have r2 : D0.rhsIdx (ix2 p q) ((contrEquiv1 D0 128 rfl rfl).symm c) = ix2 c q := by
    funext ax; apply Fin.ext
    match ax with
    | ⟨0, _⟩ => exact (DotDims.rhsIdx_val_of_single D0 (cr := 0) rfl (ix2 p q) _).trans c2
    | ⟨1, _⟩ => simp [DotDims.rhsIdx, D0, dot_S1000x128_S128x128_S1000x128_1_0_0_1_n_n]; rfl
  rw [l2, r2]

/-- The body's stored value at entry `(p, q)` of the block: the sum over `k` of the feature block at `(p, k)` times the
    weight matrix at `(k, q)`. -/
theorem pay_apply (x : Vec Ideal S1000x128 .f32) (w : Vec Ideal S128x128 .f32) (p : Fin 1000) (q : Fin 128) :
    k0_pay1 x w (ix2 p q) = ∑ k : Fin 128, x (ix2 p k) * w (ix2 k q) := by
  unfold k0_pay1
  show FloatOps.matmul D0 none (truncf (F := Ideal) .bf16 x bitsLt_bf16_f32) (truncf (F := Ideal) .bf16 w bitsLt_bf16_f32)
      (constant (F := Ideal) S1000x128 .f32 0x00000000#32) (ix2 p q) = _
  rw [Ideal.matmul_constant_zero_apply]
  exact contract_eq _ _ p q

/-- The printed index maps over the grid: the feature window and the result window sit at block row `t`, block column
    0; the weight window at block (0, 0); and the grid has 50 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ t.val < 50 :=
  (by decide +kernel : ∀ t : Fin grid0.N, _)

/-- The result array as one function of the arrays the launch finds: the whole matrix product, entry by entry. -/
abbrev G (c : Dev nD) : S50000x128.Idx → Elt Ideal .f32 := fun i =>
  Cert.Bn.mmAt (V c (Pipeline.arrRef spec0 0)) (V c (Pipeline.arrRef spec0 1)) (i 0) (i 1)

set_option maxHeartbeats 1000000 in
/-- What point `t` writes back is block `t` of the whole product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x128) hz]
  obtain ⟨a00, a01, a10, a11, a20, a21, ht⟩ := idx_facts t
  funext j
  obtain ⟨p, q, rfl⟩ : ∃ (p : Fin 1000) (q : Fin 128), j = ix2 p q := ⟨j 0, j 1, eq_ix2 j⟩
  refine (pay_apply _ _ p q).trans ?_
  have hp : p.val < 1000 := p.isLt
  have hq : q.val < 128 := q.isLt
  have e2 : ((cfg0.win 2).blk t).view.emb (ix2 p q) = ix2 (⟨1000 * t.val + p.val, by omega⟩ : Fin 50000) q := by
    funext a; apply Fin.ext
    match a with
    | ⟨0, _⟩ => show win0_2.index t (0 : Fin 2) * 1000 + 1 * p.val = 1000 * t.val + p.val; omega
    | ⟨1, _⟩ => show win0_2.index t (1 : Fin 2) * 128 + 1 * q.val = q.val; omega
  have rG : ((cfg0.win 2).blk t).view.read (Elt Ideal) (G V c) (ix2 p q) = G V c (ix2 (⟨1000 * t.val + p.val, by omega⟩ : Fin 50000) q) := by
    show G V c (((cfg0.win 2).blk t).view.emb (ix2 p q)) = _; rw [e2]
  rw [rG]
  show _ = Cert.Bn.mmAt (V c (Pipeline.arrRef spec0 0)) (V c (Pipeline.arrRef spec0 1)) (⟨1000 * t.val + p.val, by omega⟩ : Fin 50000) q
  unfold Cert.Bn.mmAt
  refine Finset.sum_congr rfl fun k _ => ?_
  have hk : k.val < 128 := k.isLt
  have e0 : ((cfg0.win 0).blk t).view.emb (ix2 p k) = ix2 (⟨1000 * t.val + p.val, by omega⟩ : Fin 50000) k := by
    funext a; apply Fin.ext
    match a with
    | ⟨0, _⟩ => show win0_0.index t (0 : Fin 2) * 1000 + 1 * p.val = 1000 * t.val + p.val; omega
    | ⟨1, _⟩ => show win0_0.index t (1 : Fin 2) * 128 + 1 * k.val = k.val; omega
  have e1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have r0 : iblk0 V c 0 t (ix2 p k) = V c (Pipeline.arrRef spec0 0) (ix2 (⟨1000 * t.val + p.val, by omega⟩ : Fin 50000) k) := by
    show V c (Pipeline.arrRef spec0 0) (((cfg0.win 0).blk t).view.emb (ix2 p k)) = _; rw [e0]
  have r1 : iblk0 V c 1 t (ix2 k q) = V c (Pipeline.arrRef spec0 1) (ix2 k q) := by
    show V c (Pipeline.arrRef spec0 1) (((cfg0.win 1).blk t).view.emb (ix2 k q)) = _; rw [e1]
  rw [r0, r1]

/-- An index of the result array is in point `t`'s block exactly when each coordinate is in the block's range. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v35).slice (win0_2.rect t)).set ↔ _
  rw [View.set_slice_whole, Rect.mem_set_unit]
  exact Iff.rfl

/-- Every index of the result is in the block of the point numbered by its row divided by 1000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 1000, by rw [show cfg0.N = 50 from N_0]; omega⟩
  obtain ⟨a00, a01, a10, a11, a20, a21, ht⟩ := idx_facts t
  have htv : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The result array after the launch is the whole product of the two arrays it found. -/
theorem final (c : Dev nD) : (dat0 V c).arrAt 2 cfg0.N = G V c :=
  (dat0 V c).arrAt_eq_of_cover 2 (G V c) (fun t _ => flushed_eq V c t) (cover)

end Cert.KernelIdeal.Matmul

end
-- ==== Proof.Stats.lean ====
/- The middle region of the kernel: the column sums and column sums of squares of a 50000 × 128 matrix, accumulated
   block by block over a grid of 50 points. At point s the body reads rows 1000 s … 1000 s + 999 of the matrix; at the
   first point it zeroes two 1 × 128 accumulators; at every point it adds to the first the block's column sums and
   to the second the block's column sums of squares. The accumulators' block never moves, so each point finds what
   the point before left, and the arrays end holding the contents after the last point. Read over the extended
   reals (addition exact), the first accumulator ends at ((0 + b₀) + b₁) + … + b₄₉ with b_s the column sums of
   block s, which is the sum of the column over all 50000 rows; likewise the second with the squares. -/
import proofs.«153004_j65549790872161_1_alg».proof.Proof.Gen.KernelIdeal.Frame
import proofs.«153004_j65549790872161_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Stats

open Cert.KernelIdeal Cert.KernelIdeal.Gen

variable {F : FTy → Type} [FloatOps F]

theorem hz : (![0, 0] : Fin 2 → Nat) = fun _ => 0 := funext fun a => by fin_cases a <;> rfl

/-- At a later point the first accumulator is left holding the one covering store's payload: its running contents plus
    the block's column sums. -/
theorem out_B_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S1000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S1000x128) hz,
    View.ld_unit_zero (S := S1x128) hz]

/-- At a later point the second accumulator is left holding its running contents plus the block's column sums of squares. -/
theorem out_B_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S1000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S1000x128) hz,
    View.ld_unit_zero (S := S1x128) hz]

/-- At the first point the first accumulator is zeroed, read back, and left holding zero plus the block's column sums. -/
theorem out_A_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S1000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S1000x128) hz]

/-- At the first point the second accumulator likewise: zero plus the block's column sums of squares. -/
theorem out_A_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S1000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S1000x128) hz]

/-! ## The accumulators' contents after each point -/

section Run
variable (V : (c : Dev nD) → (b : Ref sig .tc) → Buf (Elt F) ((c : Thread nD τ).loc b))

/-- The first accumulator after point `n`: the zero block with block 0's column sums added at the first point, each
    later block's column sums added at its point, in point order. -/
def run1 (c : Dev nD) : (n : ℕ) → n < cfg1.N → Vec F S1x128 .f32
  | 0, h => k1_pay4 (iblk1 V c 0 ⟨0, h⟩) k1_pay1
  | n + 1, h => k1_pay4 (iblk1 V c 0 ⟨n + 1, h⟩) (run1 c n (Nat.lt_of_succ_lt h))

/-- The second accumulator after point `n`: the same with each block's column sums of squares. -/
def run2 (c : Dev nD) : (n : ℕ) → n < cfg1.N → Vec F S1x128 .f32
  | 0, h => k1_pay5 (iblk1 V c 0 ⟨0, h⟩) k1_pay2
  | n + 1, h => k1_pay5 (iblk1 V c 0 ⟨n + 1, h⟩) (run2 c n (Nat.lt_of_succ_lt h))

/-- What the two output blocks hold after point `n` is the pair of running sums: at the first point the zeroing
    case, at every later point the accumulating case over what the point before left — by induction on the point. -/
theorem outsAt_eq (c : Dev nD) : ∀ (n : ℕ) (h : n < cfg1.N), outsAt1 V c n h = (run1 V c n h, run2 V c n h)
  | 0, h => by
    refine (outsAt1_A V c ⟨0, h⟩ (Nat.zero_mod _)).trans ?_
    rw [out_A_1, out_A_2]
    rfl
  | n + 1, h => by
    have hN : cfg1.N = 50 := N_1
    have hB : ¬(⟨n + 1, h⟩ : Fin cfg1.N).val % 50 = 0 := by dsimp only; omega
    rw [outsAt1_B V c ⟨n + 1, h⟩ hB, out_B_1, out_B_2]
    show (k1_pay4 _ (outsAt1 V c n _).1, k1_pay5 _ (outsAt1 V c n _).2) = _
    rw [outsAt_eq c n]
    rfl

end Run

/-! ## The payloads read at an index, over the extended reals -/

section AtIdeal
open Idealize.ShloMosaic.ValueIdx
open scoped BigOperators

/-- The zero block the first point stores into the first accumulator reads the real number zero. -/
theorem pay1_apply (q : Fin 128) : k1_pay1 (F := Ideal) (ix2 0 q) = 0 := by
  unfold k1_pay1
  exact Ideal.ofBits_zero_f32

/-- Likewise the zero block stored into the second accumulator. -/
theorem pay2_apply (q : Fin 128) : k1_pay2 (F := Ideal) (ix2 0 q) = 0 := by
  unfold k1_pay2
  exact Ideal.ofBits_zero_f32

/-- What the body stores into the first accumulator, at column `q`: the accumulator's entry plus the sum of
    column `q` over the block's 1000 rows. -/
theorem pay4_apply (x : Vec Ideal S1000x128 .f32) (a : Vec Ideal S1x128 .f32) (q : Fin 128) :
    k1_pay4 (F := Ideal) x a (ix2 0 q) = a (ix2 0 q) + ∑ r : Fin 1000, x (ix2 r q) := by
  unfold k1_pay4 k1_pay3
  refine (addf_apply _ _ _).trans ?_
  refine congrArg₂ (· + ·) (congrFun (shapeCast_self a _) _) ?_
  refine (shapeCast_addUnit_apply ![128] _ _ (ix2 0 q)).trans ?_
  refine (Ideal.multiReduction_add_single _ _ _ _ _ _).trans ?_
  refine Finset.sum_congr rfl fun r _ => ?_
  refine (congrFun (shapeCast_self x _) _).trans ?_
  refine congrArg x ?_
  funext b
  match b with
  | ⟨0, _⟩ => rfl
  | ⟨1, _⟩ => rfl

/-- What the body stores into the second accumulator, at column `q`: the accumulator's entry plus the sum of the
    squares of column `q` over the block's 1000 rows. -/
theorem pay5_apply (x : Vec Ideal S1000x128 .f32) (a : Vec Ideal S1x128 .f32) (q : Fin 128) :
    k1_pay5 (F := Ideal) x a (ix2 0 q) = a (ix2 0 q) + ∑ r : Fin 1000, x (ix2 r q) * x (ix2 r q) := by
  unfold k1_pay5 k1_pay3
  refine (addf_apply _ _ _).trans ?_
  refine congrArg₂ (· + ·) (congrFun (shapeCast_self a _) _) ?_
  refine (shapeCast_addUnit_apply ![128] _ _ (ix2 0 q)).trans ?_
  refine (Ideal.multiReduction_add_single _ _ _ _ _ _).trans ?_
  refine Finset.sum_congr rfl fun r _ => ?_
  refine (mulf_apply _ _ _).trans ?_
  have e : shapeCast S1000x128 x shapeCasts_S1000x128_S1000x128 (reduces_S1000x128_S128.lift (fun a : Fin 1 => (ix2 (0 : Fin 1) q) a.succ) r)
      = x (ix2 r q) := by
    refine (congrFun (shapeCast_self x _) _).trans ?_
    refine congrArg x ?_
    funext b
    match b with
    | ⟨0, _⟩ => rfl
    | ⟨1, _⟩ => rfl
  exact congrArg₂ (· * ·) e e

end AtIdeal

/-! ## A block's rows are rows of the array -/

section Block
variable (V : (c : Dev nD) → (b : Ref sig .tc) → Buf (Elt F) ((c : Thread nD τ).loc b))

/-- The input window's block index at point `t` is `(t, 0)` — decided over the grid's 50 points. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- Entry `(r, q)` of the block read at point `t` is entry `(1000 t + r, q)` of the array: a block's coordinate is
    the block index times the block's size plus the coordinate inside the block. -/
theorem iblk_apply (c : Dev nD) (t : Fin cfg1.N) (r : Fin 1000) (q : Fin 128) (hb : 1000 * t.val + r.val < 50000) :
    (iblk1 V c 0 t : Vec F S1000x128 .f32) (ValueIdx.ix2 r q)
      = V c (Pipeline.arrRef spec1 0) (ValueIdx.ix2 (⟨1000 * t.val + r.val, hb⟩ : Fin 50000) q) := by
  have hi := index1_0 t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 1000 + 1 * r.val = 1000 * t.val + r.val; rw [hi.1]; omega
  | ⟨1, _⟩ => show win1_0.index t 1 * 128 + 1 * q.val = q.val; rw [hi.2]; omega

end Block

/-! ## The running sums over the extended reals -/

section Sums
open Idealize.ShloMosaic.ValueIdx
open scoped BigOperators

/-- A quantity that starts at zero plus the first thousand terms of a sequence and gains the next thousand at every
    step holds, after step `n`, the sum of the first `1000 (n + 1)` terms. -/
theorem chain_sum (G : ℕ → EReal) (N : ℕ) (f : (n : ℕ) → n < N → EReal)
    (h0 : ∀ h, f 0 h = 0 + ∑ r ∈ Finset.range 1000, G (1000 * 0 + r))
    (hs : ∀ n (h : n + 1 < N),
      f (n + 1) h = f n (Nat.lt_of_succ_lt h) + ∑ r ∈ Finset.range 1000, G (1000 * (n + 1) + r)) :
    ∀ n (h : n < N), f n h = ∑ p ∈ Finset.range (1000 * (n + 1)), G p
  | 0, h => by
    rw [h0, zero_add]
    refine Finset.sum_congr rfl fun r _ => ?_
    rw [Nat.mul_zero, Nat.zero_add]
  | n + 1, h => by
    rw [hs n h, chain_sum G N f h0 hs n, show 1000 * (n + 1 + 1) = 1000 * (n + 1) + 1000 from by ring,
      Finset.sum_range_add]

/-- Column `q` of a 50000 × 128 matrix, each entry passed through `φ`, as a sequence: entry `p` below 50000, zero
    from there on (never read). -/
def colSeq (φ : EReal → EReal) (A : Cert.Bn.Mat 50000 128) (q : Fin 128) (p : ℕ) : EReal :=
  if h : p < 50000 then φ (A (ix2 ⟨p, h⟩ q)) else 0

/-- The whole sequence's first 50000 terms sum to the column's sum over all rows. -/
theorem colSeq_sum (φ : EReal → EReal) (A : Cert.Bn.Mat 50000 128) (q : Fin 128) :
    ∑ p ∈ Finset.range 50000, colSeq φ A q p = ∑ r : Fin 50000, φ (A (ix2 r q)) := by
  rw [Finset.sum_range]
  exact Finset.sum_congr rfl fun r _ => dif_pos r.isLt

variable (V : (c : Dev nD) → (b : Ref sig .tc) → Buf (Elt Ideal) ((c : Thread nD τ).loc b))

/-- The block read at point `t`, summed down column `q` through `φ`, is the thousand terms of the column's sequence
    from `1000 t`. -/
theorem block_sum (φ : EReal → EReal) (c : Dev nD) (t : Fin cfg1.N) (q : Fin 128) :
    ∑ r : Fin 1000, φ ((iblk1 V c 0 t : Vec Ideal S1000x128 .f32) (ix2 r q))
      = ∑ r ∈ Finset.range 1000, colSeq φ (V c (Pipeline.arrRef spec1 0)) q (1000 * t.val + r) := by
  have hN : t.val < 50 := lt_of_lt_of_eq t.isLt (show cfg1.N = 50 from N_1)
  rw [Finset.sum_range (fun r => colSeq φ (V c (Pipeline.arrRef spec1 0)) q (1000 * t.val + r))]
  refine Finset.sum_congr rfl fun r _ => ?_
  have hb : 1000 * t.val + r.val < 50000 := by have := r.isLt; omega
  rw [iblk_apply V c t r q hb]
  unfold colSeq
  rw [dif_pos hb]

/-- After point `n` the first accumulator holds, at column `q`, the sum of the column's first `1000 (n + 1)` rows. -/
theorem run1_apply (c : Dev nD) (q : Fin 128) : ∀ (n : ℕ) (h : n < cfg1.N),
    run1 V c n h (ix2 0 q) = ∑ p ∈ Finset.range (1000 * (n + 1)), colSeq id (V c (Pipeline.arrRef spec1 0)) q p :=
  chain_sum _ cfg1.N (fun n h => run1 V c n h (ix2 0 q))
    (fun h => by
      show k1_pay4 (F := Ideal) (iblk1 V c 0 ⟨0, h⟩) (k1_pay1 (F := Ideal)) (ix2 0 q) = _
      rw [pay4_apply, pay1_apply]
      exact congrArg (0 + ·) (block_sum V id c ⟨0, h⟩ q))
    (fun n h => by
      show k1_pay4 (F := Ideal) (iblk1 V c 0 ⟨n + 1, h⟩) (run1 V c n (Nat.lt_of_succ_lt h)) (ix2 0 q) = _
      rw [pay4_apply]
      exact congrArg (run1 V c n (Nat.lt_of_succ_lt h) (ix2 0 q) + ·) (block_sum V id c ⟨n + 1, h⟩ q))

/-- After point `n` the second accumulator holds, at column `q`, the sum of the squares of the column's first
    `1000 (n + 1)` rows. -/
theorem run2_apply (c : Dev nD) (q : Fin 128) : ∀ (n : ℕ) (h : n < cfg1.N),
    run2 V c n h (ix2 0 q)
      = ∑ p ∈ Finset.range (1000 * (n + 1)), colSeq (fun a => a * a) (V c (Pipeline.arrRef spec1 0)) q p :=
  chain_sum _ cfg1.N (fun n h => run2 V c n h (ix2 0 q))
    (fun h => by
      show k1_pay5 (F := Ideal) (iblk1 V c 0 ⟨0, h⟩) (k1_pay2 (F := Ideal)) (ix2 0 q) = _
      rw [pay5_apply, pay2_apply]
      exact congrArg (0 + ·) (block_sum V (fun a => a * a) c ⟨0, h⟩ q))
    (fun n h => by
      show k1_pay5 (F := Ideal) (iblk1 V c 0 ⟨n + 1, h⟩) (run2 V c n (Nat.lt_of_succ_lt h)) (ix2 0 q) = _
      rw [pay5_apply]
      exact congrArg (run2 V c n (Nat.lt_of_succ_lt h) (ix2 0 q) + ·)
        (block_sum V (fun a => a * a) c ⟨n + 1, h⟩ q))

end Sums

/-! ## The result arrays -/

section Final
variable (V : (c : Dev nD) → (b : Ref sig .tc) → Buf (Elt F) ((c : Thread nD τ).loc b))

/-- The last point of the grid. -/
def tLast : Fin cfg1.N := ⟨49, by rw [show cfg1.N = 50 from N_1]; decide⟩

/-- The first result array's contents: the first accumulator after the last point (its one block is the array). -/
abbrev res1 (c : Dev nD) : Buf (Elt F) ((c : Thread nD τ).loc main_v52_0) := run1 V c 49 tLast.isLt
/-- The second result array's contents: the second accumulator after the last point. -/
abbrev res2 (c : Dev nD) : Buf (Elt F) ((c : Thread nD τ).loc main_v52_1) := run2 V c 49 tLast.isLt

/-- The one write-back of the first accumulator, at the last point, writes the running sum: block (0, 0) of the
    1 × 128 array read through zero offsets is the array. -/
theorem flushed_eq1 (c : Dev nD) (t : Fin cfg1.N) (hf : (cfg1.win 1).flush t = true) :
    (dat1 V c).flushed 1 t = ((cfg1.win 1).blk t).view.read (Elt F) (res1 V c) := by
  have hN : cfg1.N = 50 := N_1
  have h49 : t.val = 49 := by have := (flush1_1 t).mp hf; have := t.isLt; omega
  obtain rfl : t = tLast := Fin.ext h49
  show (cfg1.win 1).cut (grid1.coords tLast) ((dat1 V c).after 1 tLast) = _
  rw [after1_1, outsAt_eq]
  have hz' : (fun a => win1_1.index tLast a * main_v52_0.ty.shape.size a) = fun _ => 0 :=
    funext fun a => by fin_cases a <;> decide
  exact (Memref.read_access_unit_zero (Elt F) main_v52_0 hz' (fun a => by rw [congrFun hz' a]; simp) (res1 V c)).symm

/-- Likewise the second accumulator's. -/
theorem flushed_eq2 (c : Dev nD) (t : Fin cfg1.N) (hf : (cfg1.win 2).flush t = true) :
    (dat1 V c).flushed 2 t = ((cfg1.win 2).blk t).view.read (Elt F) (res2 V c) := by
  have hN : cfg1.N = 50 := N_1
  have h49 : t.val = 49 := by have := (flush1_2 t).mp hf; have := t.isLt; omega
  obtain rfl : t = tLast := Fin.ext h49
  show (cfg1.win 2).cut (grid1.coords tLast) ((dat1 V c).after 2 tLast) = _
  rw [after1_2, outsAt_eq]
  have hz' : (fun a => win1_2.index tLast a * main_v52_1.ty.shape.size a) = fun _ => 0 :=
    funext fun a => by fin_cases a <;> decide
  exact (Memref.read_access_unit_zero (Elt F) main_v52_1 hz' (fun a => by rw [congrFun hz' a]; simp) (res2 V c)).symm

/-- So the first result array ends holding the first accumulator after the last point: that point's block covers it. -/
theorem final1 (c : Dev nD) : (dat1 V c).arrAt 1 cfg1.N = res1 V c :=
  (dat1 V c).arrAt_eq_of_cover 1 (res1 V c) (flushed_eq1 V c) fun i =>
    ⟨tLast, (flush1_1 tLast).mpr rfl, by
      show i ∈ ((View.whole main_v52_0).slice (win1_1.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index tLast 0 * win1_1.size 0 ≤ (i 0 : Nat)
          ∧ (i 0 : Nat) < win1_1.index tLast 0 * win1_1.size 0 + win1_1.xsize (grid1.coords tLast) 0
        rw [show win1_1.index tLast 0 * win1_1.size 0 = 0 from by decide +kernel,
          show win1_1.xsize (grid1.coords tLast) 0 = 1 from by decide +kernel]; omega
      | ⟨1, _⟩ =>
        show win1_1.index tLast 1 * win1_1.size 1 ≤ (i 1 : Nat)
          ∧ (i 1 : Nat) < win1_1.index tLast 1 * win1_1.size 1 + win1_1.xsize (grid1.coords tLast) 1
        rw [show win1_1.index tLast 1 * win1_1.size 1 = 0 from by decide +kernel,
          show win1_1.xsize (grid1.coords tLast) 1 = 128 from by decide +kernel]; omega⟩

/-- And the second result array the second accumulator after the last point. -/
theorem final2 (c : Dev nD) : (dat1 V c).arrAt 2 cfg1.N = res2 V c :=
  (dat1 V c).arrAt_eq_of_cover 2 (res2 V c) (flushed_eq2 V c) fun i =>
    ⟨tLast, (flush1_2 tLast).mpr rfl, by
      show i ∈ ((View.whole main_v52_1).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [show win1_2.index tLast 0 * win1_2.size 0 = 0 from by decide +kernel,
          show win1_2.xsize (grid1.coords tLast) 0 = 1 from by decide +kernel]; omega
      | ⟨1, _⟩ =>
        show win1_2.index tLast 1 * win1_2.size 1 ≤ (i 1 : Nat)
          ∧ (i 1 : Nat) < win1_2.index tLast 1 * win1_2.size 1 + win1_2.xsize (grid1.coords tLast) 1
        rw [show win1_2.index tLast 1 * win1_2.size 1 = 0 from by decide +kernel,
          show win1_2.xsize (grid1.coords tLast) 1 = 128 from by decide +kernel]; omega⟩

end Final

/-! ## The two column statistics the region leaves -/

section Deliverable
open Idealize.ShloMosaic.ValueIdx
variable (V : (c : Dev nD) → (b : Ref sig .tc) → Buf (Elt Ideal) ((c : Thread nD τ).loc b))

/-- The first result array holds, at column `q`, the sum of column `q` of the matrix the region reads over all
    50000 rows. -/
theorem sum_eq (c : Dev nD) (q : Fin 128) :
    (dat1 (F := Ideal) V c).arrAt 1 cfg1.N (ix2 (0 : Fin 1) q) = Cert.Bn.colSum (V c (Pipeline.arrRef spec1 0)) q := by
  rw [final1]
  exact (run1_apply V c q 49 tLast.isLt).trans (colSeq_sum id (V c (Pipeline.arrRef spec1 0)) q)

/-- The second result array holds, at column `q`, the sum of the squares of column `q` over all 50000 rows. -/
theorem sumsq_eq (c : Dev nD) (q : Fin 128) :
    (dat1 (F := Ideal) V c).arrAt 2 cfg1.N (ix2 (0 : Fin 1) q) = Cert.Bn.colSumSq (V c (Pipeline.arrRef spec1 0)) q := by
  rw [final2]
  exact (run2_apply V c q 49 tLast.isLt).trans (colSeq_sum (fun a => a * a) (V c (Pipeline.arrRef spec1 0)) q)

end Deliverable

end Cert.KernelIdeal.Stats
end
-- ==== Proof.Finalize.lean ====
/- The last launch, read as one function of the arrays it finds. The grid has 50 points; point `t` reads rows
   1000·t … 1000·t + 999 of the aggregate `A` and of the input features `X`, and the whole 1 × 128 rows holding the
   column mean, the column variance, the scale and the shift; it writes the same rows of the output. Entry `(r, q)` of
   what it writes is `max (((A r q − mean q) · (var q + eps)^(−1/2)) · scale q + shift q) 0 + X r q`, which depends on
   the point only through the row, so the 50 blocks are the restrictions of one function of the whole arrays, and
   they tile the output. -/
import proofs.«153004_j65549790872161_1_alg».proof.Proof.Gen.KernelIdeal.Frame
import proofs.«153004_j65549790872161_1_alg».proof.Proof.Spec
import Idealize.ShloMosaic.Lib.Pipeline.Value
import Idealize.ShloMosaic.Lib.ValueIdx

set_option maxRecDepth 16384

noncomputable section

namespace Cert.KernelIdeal.Finalize

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A 1 × 128 row spread over 1000 rows, read at `(p, q)`, is the row at `q`. -/
theorem spread_apply (w : Vec Ideal S1x128 .f32) (p : Fin 1000) (q : Fin 128) :
    broadcastTo S1000x128 w broadcasts_S1x128_S1000x128 (ix2 p q) = w (ix2 0 q) :=
  broadcastTo_apply w broadcasts_S1x128_S1000x128 (ix2 p q) (ix2 0 q) (fun a => by
    match a with
    | ⟨0, _⟩ => rfl
    | ⟨1, _⟩ => rfl)

/-- The body's stored value at entry `(p, q)` of the block: the block of `A` centred at the mean row, times the
    inverse square root of the variance row plus the small constant, times the scale row, plus the shift row, clamped
    below at zero, plus the block of `X`. -/
theorem pay_apply (a : Vec Ideal S1000x128 .f32) (mu va ga be : Vec Ideal S1x128 .f32) (x : Vec Ideal S1000x128 .f32)
    (p : Fin 1000) (q : Fin 128) :
    k2_pay1 a mu va ga be x (ix2 p q)
      = max (((a (ix2 p q) - mu (ix2 0 q)) * Ideal.rsqrt (va (ix2 0 q) + Cert.Bn.eps)) * ga (ix2 0 q) + be (ix2 0 q))
          (Ideal.ofBits .f32 0x00000000#32) + x (ix2 p q) := by
  unfold k2_pay1
  simp only [shapeCast_self]
  show max (((a (ix2 p q) - broadcastTo S1000x128 mu broadcasts_S1x128_S1000x128 (ix2 p q))
        * broadcastTo S1000x128 (rsqrt (F := Ideal) (addf (F := Ideal) va (broadcast S1x128 (Scalar.ofBits (F := Ideal) .f32 0x3727C5AC#32)))) broadcasts_S1x128_S1000x128 (ix2 p q))
        * broadcastTo S1000x128 ga broadcasts_S1x128_S1000x128 (ix2 p q)
        + broadcastTo S1000x128 be broadcasts_S1x128_S1000x128 (ix2 p q)) (Ideal.ofBits .f32 0x00000000#32) + x (ix2 p q) = _
  rw [spread_apply, spread_apply, spread_apply, spread_apply]
  rfl

/-- The printed index maps over the grid: the three 1000 × 128 windows sit at block row `t`, block column 0; the four
    1 × 128 windows at block (0, 0); and the grid has 50 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 50 :=
  (by decide +kernel : ∀ t : Fin grid2.N, _)

/-- The output array as one function of the arrays the launch finds: entry `(r, q)` normalizes `A r q` by column
    `q`'s mean and variance rows, scales, shifts, clamps below at zero, and adds `X r q`. -/
abbrev G (c : Dev nD) : S50000x128.Idx → Elt Ideal .f32 := fun i =>
  Cert.Bn.bnAt (V c (Pipeline.arrRef spec2 0)) (V c (Pipeline.arrRef spec2 1))
    (fun q => V c (Pipeline.arrRef spec2 2) (ix2 0 q)) (fun q => V c (Pipeline.arrRef spec2 3) (ix2 0 q))
    (fun q => V c (Pipeline.arrRef spec2 4) (ix2 0 q)) (fun q => V c (Pipeline.arrRef spec2 5) (ix2 0 q)) (i 0) (i 1)

set_option maxHeartbeats 1000000 in
/-- What point `t` writes back is block `t` of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S1000x128) hz, View.ld_unit_zero (S := S1x128) hz]
  obtain ⟨a00, a01, a10, a11, a20, a21, a30, a31, a40, a41, a50, a51, a60, a61, ht⟩ := idx_facts t
  funext j
  obtain ⟨p, q, rfl⟩ : ∃ (p : Fin 1000) (q : Fin 128), j = ix2 p q := ⟨j 0, j 1, eq_ix2 j⟩
  refine (pay_apply _ _ _ _ _ _ p q).trans ?_
  have hp : p.val < 1000 := p.isLt
  have hq : q.val < 128 := q.isLt
  have e6 : ((cfg2.win 6).blk t).view.emb (ix2 p q) = ix2 (⟨1000 * t.val + p.val, by omega⟩ : Fin 50000) q := by
    funext a; apply Fin.ext
    match a with
    | ⟨0, _⟩ => show win2_6.index t (0 : Fin 2) * 1000 + 1 * p.val = 1000 * t.val + p.val; omega
    | ⟨1, _⟩ => show win2_6.index t (1 : Fin 2) * 128 + 1 * q.val = q.val; omega
  have e0 : ((cfg2.win 0).blk t).view.emb (ix2 p q) = ix2 (⟨1000 * t.val + p.val, by omega⟩ : Fin 50000) q := by
    funext a; apply Fin.ext
    match a with
    | ⟨0, _⟩ => show win2_0.index t (0 : Fin 2) * 1000 + 1 * p.val = 1000 * t.val + p.val; omega
    | ⟨1, _⟩ => show win2_0.index t (1 : Fin 2) * 128 + 1 * q.val = q.val; omega
  have e1 : ((cfg2.win 1).blk t).view.emb (ix2 p q) = ix2 (⟨1000 * t.val + p.val, by omega⟩ : Fin 50000) q := by
    funext a; apply Fin.ext
    match a with
    | ⟨0, _⟩ => show win2_1.index t (0 : Fin 2) * 1000 + 1 * p.val = 1000 * t.val + p.val; omega
    | ⟨1, _⟩ => show win2_1.index t (1 : Fin 2) * 128 + 1 * q.val = q.val; omega
  have e2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have e3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have e4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 128 + 1 * q.val = q.val; omega
  have e5 : ((cfg2.win 5).blk t).view.emb (ix2 (0 : Fin 1) q) = ix2 (0 : Fin 1) q := by
    funext a; apply Fin.ext
    match a with
    | ⟨0, _⟩ => show win2_5.index t (0 : Fin 2) * 1 + 1 * 0 = 0; omega
    | ⟨1, _⟩ => show win2_5.index t (1 : Fin 2) * 128 + 1 * q.val = q.val; omega
  have r0 : iblk2 V c 0 t (ix2 p q) = V c (Pipeline.arrRef spec2 0) (ix2 (⟨1000 * t.val + p.val, by omega⟩ : Fin 50000) q) := by
    show V c (Pipeline.arrRef spec2 0) (((cfg2.win 0).blk t).view.emb (ix2 p q)) = _; rw [e0]
  have r1 : iblk2 V c 1 t (ix2 p q) = V c (Pipeline.arrRef spec2 1) (ix2 (⟨1000 * t.val + p.val, by omega⟩ : Fin 50000) q) := by
    show V c (Pipeline.arrRef spec2 1) (((cfg2.win 1).blk t).view.emb (ix2 p q)) = _; rw [e1]
  have r2 : iblk2 V c 2 t (ix2 (0 : Fin 1) q) = V c (Pipeline.arrRef spec2 2) (ix2 (0 : Fin 1) q) := by
    show V c (Pipeline.arrRef spec2 2) (((cfg2.win 2).blk t).view.emb (ix2 (0 : Fin 1) q)) = _; rw [e2]
  have r3 : iblk2 V c 3 t (ix2 (0 : Fin 1) q) = V c (Pipeline.arrRef spec2 3) (ix2 (0 : Fin 1) q) := by
    show V c (Pipeline.arrRef spec2 3) (((cfg2.win 3).blk t).view.emb (ix2 (0 : Fin 1) q)) = _; rw [e3]
  have r4 : iblk2 V c 4 t (ix2 (0 : Fin 1) q) = V c (Pipeline.arrRef spec2 4) (ix2 (0 : Fin 1) q) := by
    show V c (Pipeline.arrRef spec2 4) (((cfg2.win 4).blk t).view.emb (ix2 (0 : Fin 1) q)) = _; rw [e4]
  have r5 : iblk2 V c 5 t (ix2 (0 : Fin 1) q) = V c (Pipeline.arrRef spec2 5) (ix2 (0 : Fin 1) q) := by
    show V c (Pipeline.arrRef spec2 5) (((cfg2.win 5).blk t).view.emb (ix2 (0 : Fin 1) q)) = _; rw [e5]
  have rG : ((cfg2.win 6).blk t).view.read (Elt Ideal) (G V c) (ix2 p q) = G V c (ix2 (⟨1000 * t.val + p.val, by omega⟩ : Fin 50000) q) := by
    show G V c (((cfg2.win 6).blk t).view.emb (ix2 p q)) = _; rw [e6]
  rw [r0, r1, r2, r3, r4, r5, rG]
  rfl

/-- An index of the output array is in point `t`'s block exactly when each coordinate is in the block's range. -/
theorem mem_blk (t : Fin cfg2.N) (i : S50000x128.Idx) :
    i ∈ ((cfg2.win 6).blk t).view.set ↔ ∀ a : Fin 2, win2_6.index t a * S1000x128.size a ≤ (i a).val ∧ (i a).val < win2_6.index t a * S1000x128.size a + S1000x128.size a := by
  show i ∈ ((View.whole main_v65).slice (win2_6.rect t)).set ↔ _
  rw [View.set_slice_whole, Rect.mem_set_unit]
  exact Iff.rfl

/-- Every index of the output is in the block of the point numbered by its row divided by 1000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  let t : Fin cfg2.N := ⟨(i 0).val / 1000, by rw [show cfg2.N = 50 from N_2]; omega⟩
  obtain ⟨a00, a01, a10, a11, a20, a21, a30, a31, a40, a41, a50, a51, a60, a61, ht⟩ := idx_facts t
  have htv : t.val = (i 0).val / 1000 := rfl
  refine ⟨t, flush2_6 t, ?_⟩
  rw [mem_blk]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 128 ≤ (i 1).val ∧ (i 1).val < win2_6.index t (1 : Fin 2) * 128 + 128; omega

/-- The output array after the launch is `G` of the arrays it found. -/
theorem final (c : Dev nD) : (dat2 V c).arrAt 6 cfg2.N = G V c :=
  (dat2 V c).arrAt_eq_of_cover 6 (G V c) (fun t _ => flushed_eq V c t) (cover)

end Cert.KernelIdeal.Finalize

end
-- ==== Proof.KValue.lean ====
/- The idealized kernel's result as one function of its argument arrays. Walking the contents of the buffers back
   from the end of the entry point: the result is the last launch's output, the normalization `bnAt` of the
   aggregate `A` and the input features with the mean and variance rows the host computed from the second launch's
   column sums; `A` is the host's aggregation of the first launch's matrix product. Every buffer a stretch or a launch
   does not write keeps its contents, which is how the arguments reach the places they are read. -/
import proofs.«153004_j65549790872161_1_alg».proof.Proof.Gen.KernelIdeal.Frame
import proofs.«153004_j65549790872161_1_alg».proof.Proof.Spec
import proofs.«153004_j65549790872161_1_alg».proof.Proof.Consts
import proofs.«153004_j65549790872161_1_alg».proof.Proof.Matmul
import proofs.«153004_j65549790872161_1_alg».proof.Proof.Stats
import proofs.«153004_j65549790872161_1_alg».proof.Proof.Finalize
import proofs.«153004_j65549790872161_1_alg».proof.Proof.KHost
import proofs.«153004_j65549790872161_1_alg».proof.Proof.Reads
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.KHost
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The whole matrix product of the features with the weights, as an array. -/
abbrev xwOf (c : Dev nD) : S50000x128.Idx → Elt Ideal .f32 := fun i =>
  Cert.Bn.mmAt (m ((c : Thread nD τ).loc main_arg0)) (m ((c : Thread nD τ).loc main_arg2)) (i 0) (i 1)

/-- The aggregate plus bias the kernel computes, as a function of the launch memory. -/
abbrev aggOf (c : Dev nD) : S50000x128.Idx → Elt Ideal .f32 :=
  aggK (F := Ideal) (xwOf m c) (m ((c : Thread nD τ).loc main_arg1)) (m ((c : Thread nD τ).loc main_arg3))

/-! ## The arguments where they are read -/

theorem W3_arg0 (c : Dev nD) : W3 m ρ c (Proc.devRef .tc main_arg0) = m ((c : Thread nD τ).loc main_arg0) := pre_arg0 (W0 m ρ c)
theorem W3_arg2 (c : Dev nD) : W3 m ρ c (Proc.devRef .tc main_arg2) = m ((c : Thread nD τ).loc main_arg2) := pre_arg2 (W0 m ρ c)
theorem W3_arg3 (c : Dev nD) : W3 m ρ c (Proc.devRef .tc main_arg3) = m ((c : Thread nD τ).loc main_arg3) := pre_arg3 (W0 m ρ c)
theorem W3_arg4 (c : Dev nD) : W3 m ρ c (Proc.devRef .tc main_arg4) = m ((c : Thread nD τ).loc main_arg4) := pre_arg4 (W0 m ρ c)
theorem W3_arg5 (c : Dev nD) : W3 m ρ c (Proc.devRef .tc main_arg5) = m ((c : Thread nD τ).loc main_arg5) := pre_arg5 (W0 m ρ c)

/-- The first launch leaves the features where they were (it only reads them). -/
theorem W4_arg0 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_arg0 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-- The first launch's result: the whole matrix product. -/
theorem W4_xw (c : Dev nD) : W4 m ρ c (Proc.devRef .tc main_v35) = xwOf m c := by
  refine (W4_arr m ρ c 2).trans ((Cert.KernelIdeal.Matmul.final (V3 m ρ) c).trans ?_)
  funext i
  show Cert.Bn.mmAt (W3 m ρ c (Proc.devRef .tc main_arg0)) (W3 m ρ c (Proc.devRef .tc main_arg2)) (i 0) (i 1) = _
  rw [W3_arg0, W3_arg2]

/-- The aggregate plus bias, after the stretch that follows the first launch. -/
theorem W5_agg (c : Dev nD) : W5 m ρ c (Proc.devRef .tc main_v51) = aggOf m c := by
  refine (step_eq (W4 m ρ c)).trans ?_
  rw [W4_xw, W4_arg3, W4_of_ne m ρ c main_v34 (by decide), W4_of_ne m ρ c main_v7 (by decide), W4_of_ne m ρ c main_v9 (by decide)]
  show aggStep (xwOf m c) (W3 m ρ c (Proc.devRef .tc main_v34)) (W3 m ρ c (Proc.devRef .tc main_v7)) (W3 m ρ c (Proc.devRef .tc main_v9)) _ = _
  rw [show W3 m ρ c (Proc.devRef .tc main_v34) = normK (W0 m ρ c (Proc.devRef .tc main_arg1)) from pre_norm (W0 m ρ c),
    show W3 m ρ c (Proc.devRef .tc main_v7) = rowK (W0 m ρ c (Proc.devRef .tc main_arg1)) from pre_row (W0 m ρ c),
    show W3 m ρ c (Proc.devRef .tc main_v9) = colK (W0 m ρ c (Proc.devRef .tc main_arg1)) from pre_col (W0 m ρ c)]
  rfl

theorem W5_arg0 (c : Dev nD) : W5 m ρ c (Proc.devRef .tc main_arg0) = m ((c : Thread nD τ).loc main_arg0) :=
  (step_arg0 (W4 m ρ c)).trans (W4_arg0 m ρ c)
theorem W5_arg4 (c : Dev nD) : W5 m ρ c (Proc.devRef .tc main_arg4) = m ((c : Thread nD τ).loc main_arg4) :=
  (step_arg4 (W4 m ρ c)).trans (W4_arg4 m ρ c)
theorem W5_arg5 (c : Dev nD) : W5 m ρ c (Proc.devRef .tc main_arg5) = m ((c : Thread nD τ).loc main_arg5) :=
  (step_arg5 (W4 m ρ c)).trans (W4_arg5 m ρ c)

/-- The second launch only reads the aggregate. -/
theorem W6_agg (c : Dev nD) : W6 m ρ c (Proc.devRef .tc main_v51) = aggOf m c :=
  ((W6_arr m ρ c 0).trans (((dat1 (V5 m ρ) c).arrAt_in 0 rfl _).trans (A_eq1 (V5 m ρ) c 0))).trans (W5_agg m ρ c)
theorem W6_arg0 (c : Dev nD) : W6 m ρ c (Proc.devRef .tc main_arg0) = m ((c : Thread nD τ).loc main_arg0) :=
  (W6_of_ne m ρ c main_arg0 (by decide)).trans (W5_arg0 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)

/-- The second launch's first output at column `q`: the sum of the aggregate's column. -/
theorem W6_sum (c : Dev nD) (q : Fin 128) :
    W6 m ρ c (Proc.devRef .tc main_v52_0) (ix2 (0 : Fin 1) q) = Cert.Bn.colSum (aggOf m c) q := by
  have h := Cert.KernelIdeal.Stats.sum_eq (V5 m ρ) c q
  rw [show V5 m ρ c (Pipeline.arrRef spec1 0) = aggOf m c from W5_agg m ρ c] at h
  exact (congrFun (W6_arr m ρ c 1) _).trans h

/-- Its second output at column `q`: the sum of the squares of the aggregate's column. -/
theorem W6_sumsq (c : Dev nD) (q : Fin 128) :
    W6 m ρ c (Proc.devRef .tc main_v52_1) (ix2 (0 : Fin 1) q) = Cert.Bn.colSumSq (aggOf m c) q := by
  have h := Cert.KernelIdeal.Stats.sumsq_eq (V5 m ρ) c q
  rw [show V5 m ρ c (Pipeline.arrRef spec1 0) = aggOf m c from W5_agg m ρ c] at h
  exact (congrFun (W6_arr m ρ c 2) _).trans h

/-! ## The result -/

/-- The column mean the kernel uses. -/
abbrev meanOf (c : Dev nD) (q : Fin 128) : EReal := Ideal.div (Cert.Bn.colSum (aggOf m c) q) ((50000 : ℝ) : EReal)

/-- The one-pass column variance the kernel uses. -/
abbrev varOf (c : Dev nD) (q : Fin 128) : EReal :=
  Ideal.div (Cert.Bn.colSumSq (aggOf m c) q) ((50000 : ℝ) : EReal) - meanOf m c q * meanOf m c q

/-- Entry `(p, q)` of the kernel's result: the aggregate's entry normalized by its column's mean and one-pass variance,
    scaled, shifted, clamped below at zero, plus the input feature. -/
theorem out_apply (c : Dev nD) (p : Fin 50000) (q : Fin 128) :
    W8 m ρ c (Proc.devRef .tc main_v65) (ix2 p q)
      = Cert.Bn.bnAt (aggOf m c) (m ((c : Thread nD τ).loc main_arg0)) (meanOf m c) (varOf m c)
          (fun q => m ((c : Thread nD τ).loc main_arg4) (ix1 q)) (fun q => m ((c : Thread nD τ).loc main_arg5) (ix1 q)) p q := by
  have hA : W7 m ρ c (Proc.devRef .tc main_v51) = aggOf m c := (post_agg (W6 m ρ c)).trans (W6_agg m ρ c)
  have hX : W7 m ρ c (Proc.devRef .tc main_arg0) = m ((c : Thread nD τ).loc main_arg0) := (post_arg0 (W6 m ρ c)).trans (W6_arg0 m ρ c)
  have hμ : ∀ q : Fin 128, W7 m ρ c (Proc.devRef .tc main_v61) (ix2 (0 : Fin 1) q) = meanOf m c q := fun q => by
    rw [show W7 m ρ c (Proc.devRef .tc main_v61) = _ from post_mean (W6 m ρ c), Cert.Reads.mean_apply, W6_sum]
  have hv : ∀ q : Fin 128, W7 m ρ c (Proc.devRef .tc main_v62) (ix2 (0 : Fin 1) q) = varOf m c q := fun q => by
    rw [show W7 m ρ c (Proc.devRef .tc main_v62) = _ from post_var (W6 m ρ c), Cert.Reads.var_apply, W6_sum, W6_sumsq]
  have hg : ∀ q : Fin 128, W7 m ρ c (Proc.devRef .tc main_v63) (ix2 (0 : Fin 1) q) = m ((c : Thread nD τ).loc main_arg4) (ix1 q) := fun q => by
    rw [show W7 m ρ c (Proc.devRef .tc main_v63) = _ from post_scale (W6 m ρ c), Cert.Reads.row_apply, W6_arg4]
  have hb : ∀ q : Fin 128, W7 m ρ c (Proc.devRef .tc main_v64) (ix2 (0 : Fin 1) q) = m ((c : Thread nD τ).loc main_arg5) (ix1 q) := fun q => by
    rw [show W7 m ρ c (Proc.devRef .tc main_v64) = _ from post_shift (W6 m ρ c), Cert.Reads.row_apply, W6_arg5]
  refine (congrFun ((W8_arr m ρ c 6).trans (Cert.KernelIdeal.Finalize.final (V7 m ρ) c)) (ix2 p q)).trans ?_
  show Cert.Bn.bnAt (W7 m ρ c (Proc.devRef .tc main_v51)) (W7 m ρ c (Proc.devRef .tc main_arg0))
      (fun q => W7 m ρ c (Proc.devRef .tc main_v61) (ix2 (0 : Fin 1) q)) (fun q => W7 m ρ c (Proc.devRef .tc main_v62) (ix2 (0 : Fin 1) q))
      (fun q => W7 m ρ c (Proc.devRef .tc main_v63) (ix2 (0 : Fin 1) q)) (fun q => W7 m ρ c (Proc.devRef .tc main_v64) (ix2 (0 : Fin 1) q)) p q = _
  rw [hA, hX, funext hμ, funext hv, funext hg, funext hb]

end Cert.KernelIdeal.KValue

end
-- ==== Proof.RefAgg.lean ====
/- The reference program computes the same aggregate as the kernel's host code: the same chain of operations on the
   edge list (self loops appended, source and target nodes, degrees, their power minus one half where positive, the
   per-edge products) and the same aggregation step, applied to the host's own matrix product. The functions below are
   the reference's spelling of that chain; they are equal to the kernel's, the two differing only in where the records
   of dimension numbers are declared. -/
import proofs.«153004_j65549790872161_1_alg».proof.Proof.RefRun
import proofs.«153004_j65549790872161_1_alg».proof.Proof.KHost
import Idealize.ShloMosaic.Lib.StableHlo.Run
import Idealize.ShloMosaic.Lib.Tactic

set_option maxRecDepth 16384

noncomputable section

namespace Cert.ReferenceIdeal.RefAgg

open Cert.ReferenceIdeal Cert.ReferenceIdeal.Gen
open Idealize.ShloMosaic Idealize.ShloMosaic.TcCoe Idealize.SL.Sem Idealize.ShloMosaic.StableHlo

variable {F : FTy → Type} [FloatOps F]

/-- The source node of every edge, the self loops appended. -/
def rowR (E : (⟨S2x800000, .i32⟩ : BufTy).Contents (Elt F)) : (⟨S850000, .i32⟩ : BufTy).Contents (Elt F) :=
  (shapeCast S850000 (((extractStridedSlice S1x850000 ![0, 0] · slices_S2x850000_S1x850000_0_0) : (⟨S2x850000, .i32⟩ : BufTy).Contents (Elt F) → (⟨S1x850000, .i32⟩ : BufTy).Contents (Elt F)) (((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)) E (shapeCast S2x50000 ((broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)) (shapeCast S1x1x1x50000 ((broadcastInDim S1x50000 ![1] bcast_S50000_S1x50000_1 : (⟨S50000, .i32⟩ : BufTy).Contents (Elt F) → (⟨S1x50000, .i32⟩ : BufTy).Contents (Elt F)) (iotaInDim S50000 32 0)) shapeCasts_S1x50000_S1x1x1x50000)) shapeCasts_S2x1x1x50000_S2x50000))) shapeCasts_S1x850000_S850000)

/-- The target node of every edge, the self loops appended. -/
def colR (E : (⟨S2x800000, .i32⟩ : BufTy).Contents (Elt F)) : (⟨S850000, .i32⟩ : BufTy).Contents (Elt F) :=
  (shapeCast S850000 (((extractStridedSlice S1x850000 ![1, 0] · slices_S2x850000_S1x850000_1_0) : (⟨S2x850000, .i32⟩ : BufTy).Contents (Elt F) → (⟨S1x850000, .i32⟩ : BufTy).Contents (Elt F)) (((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)) E (shapeCast S2x50000 ((broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)) (shapeCast S1x1x1x50000 ((broadcastInDim S1x50000 ![1] bcast_S50000_S1x50000_1 : (⟨S50000, .i32⟩ : BufTy).Contents (Elt F) → (⟨S1x50000, .i32⟩ : BufTy).Contents (Elt F)) (iotaInDim S50000 32 0)) shapeCasts_S1x50000_S1x1x1x50000)) shapeCasts_S2x1x1x50000_S2x50000))) shapeCasts_S1x850000_S850000)

/-- Per node: its degree (edges it is the source of) to the power minus one half where the degree is positive, else zero. -/
def dinvR (E : (⟨S2x800000, .i32⟩ : BufTy).Contents (Elt F)) : (⟨S50000, .f32⟩ : BufTy).Contents (Elt F) :=
  (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) (rowR E)) ((broadcastInDim S850000 ![] bcast_S_S850000 : (⟨S_, .f32⟩ : BufTy).Contents (Elt F) → (⟨S850000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.powf : (⟨S50000, .f32⟩ : BufTy).Contents (Elt F) → (⟨S50000, .f32⟩ : BufTy).Contents (Elt F) → (⟨S50000, .f32⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) (rowR E)) ((broadcastInDim S850000 ![] bcast_S_S850000 : (⟨S_, .f32⟩ : BufTy).Contents (Elt F) → (⟨S850000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0xBF000000#32))) ((broadcastInDim S50000 ![] bcast_S_S50000) (id (constant S_ .f32 0x00000000#32))))

/-- Per edge: the product of that value at its source and at its target (a negative node number counts from the end). -/
def normR (E : (⟨S2x800000, .i32⟩ : BufTy).Contents (Elt F)) : (⟨S850000, .f32⟩ : BufTy).Contents (Elt F) :=
  ((mulf : (⟨S850000, .f32⟩ : BufTy).Contents (Elt F) → (⟨S850000, .f32⟩ : BufTy).Contents (Elt F) → (⟨S850000, .f32⟩ : BufTy).Contents (Elt F)) ((mulf : (⟨S850000, .f32⟩ : BufTy).Contents (Elt F) → (⟨S850000, .f32⟩ : BufTy).Contents (Elt F) → (⟨S850000, .f32⟩ : BufTy).Contents (Elt F)) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinvR E) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (rowR E) ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) (rowR E) ((broadcastInDim S850000 ![] bcast_S_S850000 : (⟨S_, .i32⟩ : BufTy).Contents (Elt F) → (⟨S850000, .i32⟩ : BufTy).Contents (Elt F)) (constantI S_ 32 50000#32))) (rowR E)))) ((broadcastInDim S850000 ![] bcast_S_S850000 : (⟨S_, .f32⟩ : BufTy).Contents (Elt F) → (⟨S850000, .f32⟩ : BufTy).Contents (Elt F)) (constant S_ .f32 0x3F800000#32))) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinvR E) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (colR E) ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) (colR E) ((broadcastInDim S850000 ![] bcast_S_S850000 : (⟨S_, .i32⟩ : BufTy).Contents (Elt F) → (⟨S850000, .i32⟩ : BufTy).Contents (Elt F)) (constantI S_ 32 50000#32))) (colR E)))))

/-- One aggregation step: gather the target's row of `xw` per edge, scale by the edge's value, add into the source's
    row, add the bias row. -/
def aggStepR (xw : (⟨S50000x128, .f32⟩ : BufTy).Contents (Elt F)) (nrm : (⟨S850000, .f32⟩ : BufTy).Contents (Elt F)) (row col : (⟨S850000, .i32⟩ : BufTy).Contents (Elt F))
    (b : (⟨S128, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) row) ((mulf : (⟨S850000x128, .f32⟩ : BufTy).Contents (Elt F) → (⟨S850000x128, .f32⟩ : BufTy).Contents (Elt F) → (⟨S850000x128, .f32⟩ : BufTy).Contents (Elt F)) (((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) xw ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) col ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) col ((broadcastInDim S850000 ![] bcast_S_S850000 : (⟨S_, .i32⟩ : BufTy).Contents (Elt F) → (⟨S850000, .i32⟩ : BufTy).Contents (Elt F)) (constantI S_ 32 50000#32))) col))) ((broadcastInDim S850000x128 ![0, 1] bcast_S850000x1_S850000x128_0_1 : (⟨S850000x1, .f32⟩ : BufTy).Contents (Elt F) → (⟨S850000x128, .f32⟩ : BufTy).Contents (Elt F)) ((broadcastInDim S850000x1 ![0] bcast_S850000_S850000x1_0 : (⟨S850000, .f32⟩ : BufTy).Contents (Elt F) → (⟨S850000x1, .f32⟩ : BufTy).Contents (Elt F)) nrm)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- The aggregate plus bias, as a function of the product matrix, the edge list and the bias. -/
def aggR (xw : (⟨S50000x128, .f32⟩ : BufTy).Contents (Elt F)) (E : (⟨S2x800000, .i32⟩ : BufTy).Contents (Elt F)) (b : (⟨S128, .f32⟩ : BufTy).Contents (Elt F)) : (⟨S50000x128, .f32⟩ : BufTy).Contents (Elt F) :=
  aggStepR xw (normR E) (rowR E) (colR E) b

/-! ## The reference's functions are the kernel's -/

/-- The source nodes are computed alike. -/
theorem row_same (E : (⟨S2x800000, .i32⟩ : BufTy).Contents (Elt F)) : rowR (F := F) E = Cert.KernelIdeal.KHost.rowK (F := F) E := rfl

/-- The target nodes are computed alike. -/
theorem col_same (E : (⟨S2x800000, .i32⟩ : BufTy).Contents (Elt F)) : colR (F := F) E = Cert.KernelIdeal.KHost.colK (F := F) E := rfl

/-- The per-node values are computed alike. -/
theorem dinv_same (E : (⟨S2x800000, .i32⟩ : BufTy).Contents (Elt F)) : dinvR (F := F) E = Cert.KernelIdeal.KHost.dinvK (F := F) E := rfl

/-- The per-edge weights are computed alike. -/
theorem norm_same (E : (⟨S2x800000, .i32⟩ : BufTy).Contents (Elt F)) : normR (F := F) E = Cert.KernelIdeal.KHost.normK (F := F) E := rfl

/-- The aggregation step is the same function. -/
theorem aggStep_same (xw : (⟨S50000x128, .f32⟩ : BufTy).Contents (Elt F)) (nrm : (⟨S850000, .f32⟩ : BufTy).Contents (Elt F))
    (row col : (⟨S850000, .i32⟩ : BufTy).Contents (Elt F)) (b : (⟨S128, .f32⟩ : BufTy).Contents (Elt F)) :
    aggStepR (F := F) xw nrm row col b = Cert.KernelIdeal.KHost.aggStep (F := F) xw nrm row col b := rfl

/-- The reference's aggregate plus bias is the kernel's, as functions of the product matrix, the edge list and the
    bias. -/
theorem agg_same (xw : (⟨S50000x128, .f32⟩ : BufTy).Contents (Elt F)) (E : (⟨S2x800000, .i32⟩ : BufTy).Contents (Elt F))
    (b : (⟨S128, .f32⟩ : BufTy).Contents (Elt F)) :
    aggR (F := F) xw E b = Cert.KernelIdeal.KHost.aggK (F := F) xw E b := by
  unfold aggR Cert.KernelIdeal.KHost.aggK
  rw [norm_same, row_same, col_same, aggStep_same]

/-! ## What the reference's line leaves in the aggregate's buffer -/

set_option maxHeartbeats 4000000 in
attribute [local irreducible] Host.gather Host.scatterAdd Host.reduceAdd Host.powf concatenate extractStridedSlice shapeCast
  broadcastInDim iotaInDim select cmpi addi cmpf mulf addf constant constantI in
/-- After the reference's operations the aggregate's buffer holds the aggregate plus bias of the host's product of the
    node features with the weight matrix, of the edge list and of the bias: the operations that write it, read in
    order, are the chain the functions above spell. -/
theorem v51_eq (V : Valuation τ sig (Elt F)) :
    StableHlo.after Cert.ReferenceIdeal.RefRun.ops V (main_v51 : DevRef τ sig)
      = aggR (Host.dotGeneral (F := F) (φ₁ := .f32) (φ₂ := .f32) dot_S50000x128_S128x128_S50000x128_1_0_0_1_n_n none
          (V (main_arg0 : DevRef τ sig)) (V (main_arg2 : DevRef τ sig)))
        (V (main_arg1 : DevRef τ sig)) (V (main_arg3 : DevRef τ sig)) := by
  after_results_simp
  rfl

end Cert.ReferenceIdeal.RefAgg

end
-- ==== Proof.RefValue.lean ====
/- The reference program's result, read at an index. The run is split at the operation that writes the aggregate plus
   bias `A`: the operations after it compute, from `A`, the input features `X`, the scale and the shift, one composed
   term (`bnTail`), whatever the operations before it left in the other buffers. Read at row `p` and column `q` that
   term is column `q` of `A` centred at its mean, times the inverse square root of its two-pass variance plus the small
   constant, times the scale, plus the shift, clamped below at zero, plus `X`: the specification's `bnAt` at the column
   means `mu A` (column sum over 50000) and the two-pass variances `var2 A` (sum of squared deviations over 50000).
   The count the variance divides by is spelt 50000 minus a zero correction and guarded by a test that it is positive;
   both are evaluated here. -/
import proofs.«153004_j65549790872161_1_alg».proof.Proof.RefRun
import proofs.«153004_j65549790872161_1_alg».proof.Proof.Spec
import proofs.«153004_j65549790872161_1_alg».proof.Proof.Consts
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx

/-! ## Layout operations and the column reduction, read at an index -/

section Reads
variable {α : Type}

/-- A one-row matrix broadcast down the 50000 rows reads, at row `p` and column `q`, the row's entry `q`. -/
theorem bcRows_apply (x : S1x128.Idx → α) (p : Fin 50000) (q : Fin 128) :
    broadcastInDim S50000x128 ![0, 1] bcast_S1x128_S50000x128_0_1 x (ix2 p q) = x (ix2 (0 : Fin 1) q) :=
  broadcastInDim_apply _ _ x _ _ (fun a => match a with | ⟨0, _⟩ => rfl | ⟨1, _⟩ => rfl)

/-- A vector of 128 entries as a one-row matrix reads, at column `q`, the vector's entry `q`. -/
theorem bcRow_apply (x : S128.Idx → α) (i : Fin 1) (q : Fin 128) :
    broadcastInDim S1x128 ![1] bcast_S128_S1x128_1 x (ix2 i q) = x (ix1 q) :=
  broadcastInDim_apply _ _ x _ _ (fun a => match a with | ⟨0, _⟩ => rfl)

end Reads

/-- The host's square-root reciprocal at an index is the ideal one of the element. -/
theorem hostRsqrt_apply {s : Shape} (x : FVec Ideal s .f32) (i : s.Idx) : Host.rsqrt (F := Ideal) x i = Ideal.rsqrt (x i) := rfl

/-- The sum over the rows from the zero word, read at column `q`: the sum of the column's 50000 entries. -/
theorem reduceRows_apply (Y : FVec Ideal S50000x128 .f32) (q : Fin 128) :
    Host.reduceAdd (F := Ideal) Y (constant (F := Ideal) S_ .f32 0x00000000#32) reducesTo_S50000x128_S128_d0 h_S_ (ix1 q)
      = ∑ r : Fin 50000, Y (ix2 r q) := by
  have hR : S50000x128.Reduces [0] S128 := by decide
  rw [hostReduceAdd_apply, Ideal.hostReduceAdd_single _ hR, constant_apply, Ideal.ofBits_zero_f32, zero_add]
  refine Finset.sum_congr rfl fun k _ => congrArg Y ?_
  funext a
  match a with
  | ⟨0, _⟩ => exact Fin.ext rfl
  | ⟨1, _⟩ => exact Fin.ext rfl

/-! ## The normalization, as a function of the aggregate -/

/-- The number of rows as the variance function computes it: the constant 50000 minus the correction 0 converted to a
    float. -/
def cnt : FVec Ideal S_ .f32 :=
  subf (F := Ideal) (constant (F := Ideal) S_ .f32 0x47435000#32) (sitofp (F := Ideal) .f32 (constantI S_ 32 0#32))

/-- The column means as the normalization takes them: the column sums over the constant 50000. -/
def mean (A : FVec Ideal S50000x128 .f32) : FVec Ideal S128 .f32 :=
  Host.divf (F := Ideal) (Host.reduceAdd (F := Ideal) A (constant (F := Ideal) S_ .f32 0x00000000#32) reducesTo_S50000x128_S128_d0 h_S_)
    (broadcastInDim S128 ![] bcast_S_S128 (constant (F := Ideal) S_ .f32 0x47435000#32))

/-- The column means as the variance function takes them, a one-row matrix: the column sums, as a row, over the
    constant 50000. -/
def meanRow (A : FVec Ideal S50000x128 .f32) : FVec Ideal S1x128 .f32 :=
  Host.divf (F := Ideal) (broadcastInDim S1x128 ![1] bcast_S128_S1x128_1 (Host.reduceAdd (F := Ideal) A (constant (F := Ideal) S_ .f32 0x00000000#32) reducesTo_S50000x128_S128_d0 h_S_))
    (broadcastInDim S1x128 ![] bcast_S_S1x128 (constant (F := Ideal) S_ .f32 0x47435000#32))

/-- The deviations from the column means. -/
def dev (A : FVec Ideal S50000x128 .f32) : FVec Ideal S50000x128 .f32 :=
  subf (F := Ideal) A (broadcastInDim S50000x128 ![0, 1] bcast_S1x128_S50000x128_0_1 (meanRow A))

/-- The column variances, two-pass: the column sums of the squared deviations over the count, selected against the
    not-a-number word by the test that the count is positive. -/
def var (A : FVec Ideal S50000x128 .f32) : FVec Ideal S128 .f32 :=
  select (broadcastInDim S128 ![] bcast_S_S128 (cmpf (F := Ideal) .ogt cnt (constant (F := Ideal) S_ .f32 0x00000000#32)))
    (Host.divf (F := Ideal)
      (Host.reduceAdd (F := Ideal) (mulf (F := Ideal) (dev A) (dev A)) (constant (F := Ideal) S_ .f32 0x00000000#32) reducesTo_S50000x128_S128_d0 h_S_)
      (broadcastInDim S128 ![] bcast_S_S128 cnt))
    (broadcastInDim S128 ![] bcast_S_S128 (id (constant (F := Ideal) S_ .f32 0x7FC00000#32)))

/-- The result as a function of the aggregate `A`, the input features `X`, the scale `g` and the shift `bt`: the
    operations after the aggregate, composed in the order printed. -/
def bnTail (A X : FVec Ideal S50000x128 .f32) (g bt : FVec Ideal S128 .f32) : FVec Ideal S50000x128 .f32 :=
  addf (F := Ideal)
    (maximumf (F := Ideal)
      (addf (F := Ideal)
        (mulf (F := Ideal)
          (mulf (F := Ideal)
            (subf (F := Ideal) A
              (broadcastInDim S50000x128 ![0, 1] bcast_S1x128_S50000x128_0_1 (broadcastInDim S1x128 ![1] bcast_S128_S1x128_1 (mean A))))
            (broadcastInDim S50000x128 ![0, 1] bcast_S1x128_S50000x128_0_1
              (broadcastInDim S1x128 ![1] bcast_S128_S1x128_1
                (Host.rsqrt (F := Ideal)
                  (addf (F := Ideal) (var A) (broadcastInDim S128 ![] bcast_S_S128 (constant (F := Ideal) S_ .f32 0x3727C5AC#32)))))))
          (broadcastInDim S50000x128 ![0, 1] bcast_S1x128_S50000x128_0_1 (broadcastInDim S1x128 ![1] bcast_S128_S1x128_1 g)))
        (broadcastInDim S50000x128 ![0, 1] bcast_S1x128_S50000x128_0_1 (broadcastInDim S1x128 ![1] bcast_S128_S1x128_1 bt)))
      (broadcastInDim S50000x128 ![] bcast_S_S50000x128 (constant (F := Ideal) S_ .f32 0x00000000#32)))
    X

/-! ## The normalization read at an index -/

set_option maxRecDepth 8192

/-- The mean of each column of a 50000 × 128 matrix: the column's sum over the number of rows. -/
def mu (A : Cert.Bn.Mat 50000 128) : Fin 128 → EReal :=
  fun q => Ideal.div (Cert.Bn.colSum A q) ((50000 : ℝ) : EReal)

/-- The two-pass variance of each column: the sum of the squared deviations from the column's mean, over the number
    of rows. -/
def var2 (A : Cert.Bn.Mat 50000 128) : Fin 128 → EReal :=
  fun q => Ideal.div (∑ r : Fin 50000, (A (ix2 r q) - mu A q) * (A (ix2 r q) - mu A q)) ((50000 : ℝ) : EReal)

/-- The count is the real number 50000. -/
theorem cnt_apply (j : S_.Idx) : cnt j = ((50000 : ℝ) : EReal) := by
  unfold cnt
  rw [subf_apply, constant_apply, sitofp_apply, Cert.Consts.ofBits_50000]
  show ((50000 : ℝ) : EReal) - (((BitVec.toInt (constantI S_ 32 0#32 j) : ℤ) : ℝ) : EReal) = _
  have h0 : BitVec.toInt (constantI S_ 32 0#32 j) = 0 := by
    show (0#32 : BitVec 32).toInt = 0
    decide
  rw [h0, Int.cast_zero, EReal.coe_zero, sub_zero]

/-- The mean of column `q`: its sum over 50000. -/
theorem mean_apply (A : FVec Ideal S50000x128 .f32) (q : Fin 128) :
    mean A (ix1 q) = mu A q := by
  unfold mean mu Cert.Bn.colSum
  rw [hostDivf_apply, reduceRows_apply, broadcastInDim_scalar_apply, constant_apply, Cert.Consts.ofBits_50000]

/-- The same mean, from the variance function's one-row matrix. -/
theorem meanRow_apply (A : FVec Ideal S50000x128 .f32) (i : Fin 1) (q : Fin 128) :
    meanRow A (ix2 i q) = mu A q := by
  unfold meanRow mu Cert.Bn.colSum
  rw [hostDivf_apply, bcRow_apply, reduceRows_apply, broadcastInDim_scalar_apply, constant_apply, Cert.Consts.ofBits_50000]

/-- A deviation: the entry minus its column's mean. -/
theorem dev_apply (A : FVec Ideal S50000x128 .f32) (p : Fin 50000) (q : Fin 128) :
    dev A (ix2 p q) = A (ix2 p q) - mu A q := by
  unfold dev
  rw [subf_apply, bcRows_apply, meanRow_apply]

/-- The variance of column `q`: the count 50000 is positive, so the select returns the quotient — the sum of the
    squared deviations over 50000. -/
theorem var_apply (A : FVec Ideal S50000x128 .f32) (q : Fin 128) :
    var A (ix1 q) = var2 A q := by
  unfold var var2
  rw [select_apply, broadcastInDim_scalar_apply, cmpf_apply, cnt_apply, constant_apply, Ideal.ofBits_zero_f32]
  have hpos : FloatOps.cmpf (F := Ideal) (φ := .f32) .ogt ((50000 : ℝ) : EReal) 0 = 1#1 := by
    show BitVec.ofBool (decide ((0 : EReal) < ((50000 : ℝ) : EReal))) = 1#1
    rw [decide_eq_true (by exact_mod_cast (by norm_num : (0 : ℝ) < 50000))]; rfl
  rewrite [hpos, select_one, hostDivf_apply, broadcastInDim_scalar_apply, cnt_apply]
  have h1 := reduceRows_apply (mulf (F := Ideal) (dev A) (dev A)) q
  have h2 : (∑ r : Fin 50000, mulf (F := Ideal) (dev A) (dev A) (ix2 r q))
      = ∑ r : Fin 50000, (A (ix2 r q) - mu A q) * (A (ix2 r q) - mu A q) :=
    Finset.sum_congr rfl fun r _ => by rw [mulf_apply, dev_apply]
  exact congrArg (fun s => Ideal.div s ((50000 : ℝ) : EReal)) (h1.trans h2)

/-- The result at row `p` and column `q`, in the specification's vocabulary. -/
theorem bnTail_apply (A X : FVec Ideal S50000x128 .f32) (g bt : FVec Ideal S128 .f32) (p : Fin 50000) (q : Fin 128) :
    bnTail A X g bt (ix2 p q)
      = Cert.Bn.bnAt A X (mu A) (var2 A) (fun q => g (ix1 q)) (fun q => bt (ix1 q)) p q := by
  unfold bnTail Cert.Bn.bnAt
  rw [addf_apply, maximumf_apply, addf_apply, mulf_apply, mulf_apply, subf_apply]
  rw [bcRows_apply, bcRow_apply, mean_apply, bcRows_apply, bcRow_apply, hostRsqrt_apply, addf_apply, var_apply,
    broadcastInDim_scalar_apply, constant_apply, bcRows_apply, bcRow_apply, bcRows_apply, bcRow_apply,
    broadcastInDim_scalar_apply, constant_apply]

/-! ## The run, split at the aggregate -/

section Split
variable {F : FTy → Type} [FloatOps F]

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations up to and including the one that writes the aggregate plus bias. -/
abbrev opsA : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.reshape main_v1 main_v2 rfl shapeCasts_S1x50000_S1x1x1x50000,
    StableHlo.unary main_v2 main_v3 (broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)),
    StableHlo.reshape main_v3 main_v4 rfl shapeCasts_S2x1x1x50000_S2x50000,
    StableHlo.binary main_arg1 main_v4 main_v5 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    StableHlo.unary main_v5 main_v6 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v6 main_v7 rfl shapeCasts_S1x850000_S850000,
    StableHlo.unary main_v5 main_v8 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v8 main_v9 rfl shapeCasts_S1x850000_S850000,
    StableHlo.nullary main_cst (constant S_ .f32 0x3F800000#32),
    StableHlo.unary main_cst main_v10 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v11 (broadcastInDim S50000 ![] bcast_S_S50000 : (⟨S_, .f32⟩ : BufTy).Contents (Elt F) → (⟨S50000, .f32⟩ : BufTy).Contents (Elt F)),
    StableHlo.unary main_v7 main_v12 (broadcastInDim S850000x1 ![0] bcast_S850000_S850000x1_0 : (⟨S850000, .i32⟩ : BufTy).Contents (Elt F) → (⟨S850000x1, .i32⟩ : BufTy).Contents (Elt F)),
    StableHlo.ternary main_v11 main_v12 main_v10 main_v13 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v14 (broadcastInDim S50000 ![] bcast_S_S50000 : (⟨S_, .f32⟩ : BufTy).Contents (Elt F) → (⟨S50000, .f32⟩ : BufTy).Contents (Elt F)),
    StableHlo.binary main_v13 main_v14 main_v15 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0xBF000000#32),
    StableHlo.unary main_cst_2 main_v16 (broadcastInDim S50000 ![] bcast_S_S50000 : (⟨S_, .f32⟩ : BufTy).Contents (Elt F) → (⟨S50000, .f32⟩ : BufTy).Contents (Elt F)),
    StableHlo.binary main_v13 main_v16 main_v17 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S50000 ![] bcast_S_S50000),
    StableHlo.TRef.ternary (.of main_v15 : StableHlo.TRef sig ⟨S50000, .i1⟩) (.of main_v17 : StableHlo.TRef sig ⟨S50000, .f32⟩) main_call0.v1 main_call0.v2 select,
    StableHlo.nullary main_c (constantI S_ 32 0#32),
    StableHlo.unary main_c main_v19 (broadcastInDim S850000 ![] bcast_S_S850000 : (⟨S_, .i32⟩ : BufTy).Contents (Elt F) → (⟨S850000, .i32⟩ : BufTy).Contents (Elt F)),
    StableHlo.binary main_v7 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v21 (broadcastInDim S850000 ![] bcast_S_S850000 : (⟨S_, .i32⟩ : BufTy).Contents (Elt F) → (⟨S850000, .i32⟩ : BufTy).Contents (Elt F)),
    StableHlo.binary main_v7 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v7 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v25 main_v10 main_v26 (mulf : (⟨S850000, .f32⟩ : BufTy).Contents (Elt F) → (⟨S850000, .f32⟩ : BufTy).Contents (Elt F) → (⟨S850000, .f32⟩ : BufTy).Contents (Elt F)),
    StableHlo.nullary main_c_5 (constantI S_ 32 0#32),
    StableHlo.unary main_c_5 main_v27 (broadcastInDim S850000 ![] bcast_S_S850000 : (⟨S_, .i32⟩ : BufTy).Contents (Elt F) → (⟨S850000, .i32⟩ : BufTy).Contents (Elt F)),
    StableHlo.binary main_v9 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v29 (broadcastInDim S850000 ![] bcast_S_S850000 : (⟨S_, .i32⟩ : BufTy).Contents (Elt F) → (⟨S850000, .i32⟩ : BufTy).Contents (Elt F)),
    StableHlo.binary main_v9 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v9 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v18 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.binary main_arg0 main_arg2 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v36 (broadcastInDim S850000 ![] bcast_S_S850000 : (⟨S_, .i32⟩ : BufTy).Contents (Elt F) → (⟨S850000, .i32⟩ : BufTy).Contents (Elt F)),
    StableHlo.binary main_v9 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v38 (broadcastInDim S850000 ![] bcast_S_S850000 : (⟨S_, .i32⟩ : BufTy).Contents (Elt F) → (⟨S850000, .i32⟩ : BufTy).Contents (Elt F)),
    StableHlo.binary main_v9 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v9 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_v35 main_v41 main_v42 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v34 main_v43 (broadcastInDim S850000x1 ![0] bcast_S850000_S850000x1_0 : (⟨S850000, .f32⟩ : BufTy).Contents (Elt F) → (⟨S850000x1, .f32⟩ : BufTy).Contents (Elt F)),
    StableHlo.unary main_v43 main_v44 (broadcastInDim S850000x128 ![0, 1] bcast_S850000x1_S850000x128_0_1 : (⟨S850000x1, .f32⟩ : BufTy).Contents (Elt F) → (⟨S850000x128, .f32⟩ : BufTy).Contents (Elt F)),
    StableHlo.binary main_v42 main_v44 main_v45 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v46 (broadcastInDim S50000x128 ![] bcast_S_S50000x128 : (⟨S_, .f32⟩ : BufTy).Contents (Elt F) → (⟨S50000x128, .f32⟩ : BufTy).Contents (Elt F)),
    StableHlo.unary main_v7 main_v47 (broadcastInDim S850000x1 ![0] bcast_S850000_S850000x1_0 : (⟨S850000, .i32⟩ : BufTy).Contents (Elt F) → (⟨S850000x1, .i32⟩ : BufTy).Contents (Elt F)),
    StableHlo.ternary main_v46 main_v47 main_v45 main_v48 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)) ]

/-- The operations after it: the normalization, the clamp and the residual. -/
abbrev opsB : List (HloOp τ sig (Elt F)) :=
  [ StableHlo.nullary main_cst_10 (constant S_ .f32 0x00000000#32),
    StableHlo.binary main_v51 main_cst_10 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call1.cst (constant S_ .f32 0x00000000#32),
    StableHlo.TRef.binary (.of main_v51 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v51 : StableHlo.TRef sig ⟨S50000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg4 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg5 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v70 : StableHlo.TRef sig ⟨S50000x128, .f32⟩) main_call2.v0 main_call2.v1 maximumf,
    StableHlo.binary main_v71 main_arg0 main_v72 (addf : (⟨S50000x128, .f32⟩ : BufTy).Contents (Elt F) → (⟨S50000x128, .f32⟩ : BufTy).Contents (Elt F) → (⟨S50000x128, .f32⟩ : BufTy).Contents (Elt F)) ]

theorem ops_split : (ops (F := F)) = opsA ++ opsB := rfl

end Split

set_option maxRecDepth 8192
set_option maxHeartbeats 4000000

/-- No later operation writes the aggregate's buffer. -/
theorem keepB_v51 (W : Valuation τ sig (Elt Ideal)) :
    after (opsB (F := Ideal)) W (main_v51 : DevRef τ sig) = W (main_v51 : DevRef τ sig) := by
  after_results_simp

theorem keepA_arg0 (V : Valuation τ sig (Elt Ideal)) : after (opsA (F := Ideal)) V (main_arg0 : DevRef τ sig) = V (main_arg0 : DevRef τ sig) := by
  after_results_simp
theorem keepA_arg4 (V : Valuation τ sig (Elt Ideal)) : after (opsA (F := Ideal)) V (main_arg4 : DevRef τ sig) = V (main_arg4 : DevRef τ sig) := by
  after_results_simp
theorem keepA_arg5 (V : Valuation τ sig (Elt Ideal)) : after (opsA (F := Ideal)) V (main_arg5 : DevRef τ sig) = V (main_arg5 : DevRef τ sig) := by
  after_results_simp

attribute [local irreducible] Host.reduceAdd Host.divf Host.rsqrt broadcastInDim select cmpf mulf addf subf maximumf sitofp constant constantI in
/-- From any contents, the operations after the aggregate leave the result buffer at `bnTail` of the aggregate's
    buffer, the first argument, the fifth and the sixth: the fold unrolled, each operation's result read at its own
    buffer. -/
theorem tailB (W : Valuation τ sig (Elt Ideal)) :
    after (opsB (F := Ideal)) W (main_v72 : DevRef τ sig)
      = bnTail (W (main_v51 : DevRef τ sig)) (W (main_arg0 : DevRef τ sig)) (W (main_arg4 : DevRef τ sig)) (W (main_arg5 : DevRef τ sig)) := by
  after_results_simp
  rfl

/-- The result buffer after the whole run, as a function of the aggregate's buffer after the whole run. -/
theorem v72_eq (V : Valuation τ sig (Elt Ideal)) :
    after (ops (F := Ideal)) V (main_v72 : DevRef τ sig)
      = bnTail (after (ops (F := Ideal)) V (main_v51 : DevRef τ sig)) (V (main_arg0 : DevRef τ sig)) (V (main_arg4 : DevRef τ sig))
          (V (main_arg5 : DevRef τ sig)) := by
  rw [ops_split, after_append, tailB, keepB_v51, keepA_arg0, keepA_arg4, keepA_arg5]

/-- The aggregate plus bias after the run, as a matrix of extended reals. -/
abbrev aggOf (V : Valuation τ sig (Elt Ideal)) : Cert.Bn.Mat 50000 128 := after (ops (F := Ideal)) V (main_v51 : DevRef τ sig)
/-- The input features at launch. -/
abbrev inOf (V : Valuation τ sig (Elt Ideal)) : Cert.Bn.Mat 50000 128 := V (main_arg0 : DevRef τ sig)
/-- The scale at launch. -/
abbrev scaleOf (V : Valuation τ sig (Elt Ideal)) : FVec Ideal S128 .f32 := V (main_arg4 : DevRef τ sig)
/-- The shift at launch. -/
abbrev shiftOf (V : Valuation τ sig (Elt Ideal)) : FVec Ideal S128 .f32 := V (main_arg5 : DevRef τ sig)
/-- The result after the run. -/
abbrev outOf (V : Valuation τ sig (Elt Ideal)) : Cert.Bn.Mat 50000 128 := after (ops (F := Ideal)) V (main_v72 : DevRef τ sig)

/-- The reference's result at row `p` and column `q`: with `A` the aggregate plus bias and `X` the input features,
    column `q` of `A` centred at its mean (its sum over 50000), times the inverse square root of its two-pass variance
    (the sum of its squared deviations over 50000) plus the small constant, times the scale, plus the shift, clamped
    below at zero, plus `X`. -/
theorem out_apply (V : Valuation τ sig (Elt Ideal)) (p : Fin 50000) (q : Fin 128) :
    outOf V (ix2 p q)
      = Cert.Bn.bnAt (aggOf V) (inOf V) (mu (aggOf V)) (var2 (aggOf V)) (fun q => scaleOf V (ix1 q)) (fun q => shiftOf V (ix1 q)) p q :=
  (congrFun (v72_eq V) (ix2 p q)).trans (bnTail_apply (aggOf V) (inOf V) (scaleOf V) (shiftOf V) p q)

end Cert.ReferenceIdeal.RefValue

end
-- ==== Proof.Algebraic.lean ====
/- The two idealized programs compute one function. The reference's aggregate is the kernel's: the same host chain
   applied to the same matrix product (a host contraction on one side, fifty block products on the other). Both
   results are the normalization `bnAt` of that aggregate with the same column means; the kernel's one-pass variances
   equal the reference's two-pass variances because every entry of the aggregate is real under the precondition. -/
import proofs.«153004_j65549790872161_1_alg».proof.Defs
import proofs.«153004_j65549790872161_1_alg».proof.Proof.Spec
import proofs.«153004_j65549790872161_1_alg».proof.Proof.VarLaw
import proofs.«153004_j65549790872161_1_alg».proof.Proof.PreReal
import proofs.«153004_j65549790872161_1_alg».proof.Proof.AggReal
import proofs.«153004_j65549790872161_1_alg».proof.Proof.Reads
import proofs.«153004_j65549790872161_1_alg».proof.Proof.KRun
import proofs.«153004_j65549790872161_1_alg».proof.Proof.KValue
import proofs.«153004_j65549790872161_1_alg».proof.Proof.RefRun
import proofs.«153004_j65549790872161_1_alg».proof.Proof.RefAgg
import proofs.«153004_j65549790872161_1_alg».proof.Proof.RefValue
import Idealize.ShloMosaic.Lib.ValueIdx

set_option maxRecDepth 16384

noncomputable section

open scoped BigOperators

namespace Cert.Proof.Bridge

open Idealize.ShloMosaic Idealize.ShloMosaic.TcCoe Idealize.ShloMosaic.ValueIdx Idealize.SL.Sem Idealize.ShloMosaic.StableHlo
open Cert.RealEntries Cert.Bn
open Cert.KernelIdeal.KValue

section
variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Under the precondition the kernel's aggregate is a matrix of real numbers. -/
theorem agg_real (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    ∀ i, IsReal (aggOf m c i) := by
  obtain ⟨hx, hw, hb, -, -⟩ := Cert.PreReal.real_of_pre _ _ _ _ _ _ hpre
  exact Cert.KernelIdeal.AggReal.aggK_real _ _ _ (fun i => Cert.VarLaw.mm_real _ _ hx hw (i 0) (i 1)) hb

/-- With a real aggregate the kernel's one-pass variance is the two-pass variance. -/
theorem var_two_pass (hA : ∀ i, IsReal (aggOf m c i)) (q : Fin 128) :
    varOf m c q = Ideal.div (∑ r : Fin 50000, (aggOf m c (ix2 r q) - meanOf m c q) * (aggOf m c (ix2 r q) - meanOf m c q))
      ((50000 : ℝ) : EReal) :=
  Cert.VarLaw.var_eq (aggOf m c) hA q

end

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's host contraction of the features with the weights is the whole matrix product the kernel's first
    launch leaves. -/
theorem dot_eq :
    Host.dotGeneral (F := Ideal) (φ₁ := .f32) (φ₂ := .f32) Cert.ReferenceIdeal.dot_S50000x128_S128x128_S50000x128_1_0_0_1_n_n none
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) = xwOf m c := by
  funext i
  obtain ⟨p, q, rfl⟩ : ∃ (p : Fin 50000) (q : Fin 128), i = ix2 p q := ⟨i 0, i 1, eq_ix2 i⟩
  exact Cert.Reads.ref_dot_apply _ _ p q

/-- From memories that agree on the arguments, under the precondition, the reference's result buffer ends holding
    what the kernel's does. -/
theorem result_eq
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.RefRun.ops (F := Ideal)) (launchContents m' c) (Cert.ReferenceIdeal.main_v72 : DevRef Cert.ReferenceIdeal.τ Cert.ReferenceIdeal.sig)
      = Cert.KernelIdeal.Gen.W8 m ρ c (Proc.devRef .tc Cert.KernelIdeal.main_v65) := by
  have hA : Cert.ReferenceIdeal.RefValue.aggOf (launchContents m' c) = aggOf m c := by
    show StableHlo.after (Cert.ReferenceIdeal.RefRun.ops (F := Ideal)) (launchContents m' c) (Cert.ReferenceIdeal.main_v51 : DevRef Cert.ReferenceIdeal.τ Cert.ReferenceIdeal.sig) = _
    rw [Cert.ReferenceIdeal.RefAgg.v51_eq, Cert.ReferenceIdeal.RefAgg.agg_same]
    show Cert.KernelIdeal.KHost.aggK (F := Ideal) (Host.dotGeneral (F := Ideal) (φ₁ := .f32) (φ₂ := .f32) Cert.ReferenceIdeal.dot_S50000x128_S128x128_S50000x128_1_0_0_1_n_n none
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
    rw [h0, h1, h2, h3, dot_eq]
  have hreal := agg_real m c hpre
  have hv : Cert.ReferenceIdeal.RefValue.var2 (aggOf m c) = varOf m c := funext fun q => (var_two_pass m c hreal q).symm
  funext i
  obtain ⟨p, q, rfl⟩ : ∃ (p : Fin 50000) (q : Fin 128), i = ix2 p q := ⟨i 0, i 1, eq_ix2 i⟩
  refine (Cert.ReferenceIdeal.RefValue.out_apply (launchContents m' c) p q).trans (Eq.trans ?_ (out_apply m ρ c p q).symm)
  rw [hA]
  show bnAt (aggOf m c) (m' ((c.tc : Thread Cert.ReferenceIdeal.nD Cert.ReferenceIdeal.τ).loc Cert.ReferenceIdeal.main_arg0)) (Cert.ReferenceIdeal.RefValue.mu (aggOf m c)) (Cert.ReferenceIdeal.RefValue.var2 (aggOf m c))
      (fun q => (m' ((c.tc : Thread Cert.ReferenceIdeal.nD Cert.ReferenceIdeal.τ).loc Cert.ReferenceIdeal.main_arg4)) (ix1 q)) (fun q => (m' ((c.tc : Thread Cert.ReferenceIdeal.nD Cert.ReferenceIdeal.τ).loc Cert.ReferenceIdeal.main_arg5)) (ix1 q)) p q = _
  rw [h0, h4, h5, hv]
  rfl

end

/-- At the ideal instance the kernel and the reference, run from memories agreeing on the arguments, both terminate
    with equal results and unchanged arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v65), Cert.KernelIdeal.KRun.run m ρ, ?_⟩
  refine (θ_run Cert.ReferenceIdeal.defs _ _).mono (fun r h c => ?_) (Cert.ReferenceIdeal.RefRun.run_main (F := Ideal) m' ρ')
  obtain ⟨h0, h1, h2, h3, h4, h5⟩ := hagree c
  exact ⟨(h c Cert.ReferenceIdeal.main_v72).trans (result_eq m ρ m' c (hpre c) h0 h1 h2 h3 h4 h5),
    (h c Cert.ReferenceIdeal.main_arg0).trans (Cert.ReferenceIdeal.RefRun.arg0_eq _), (h c Cert.ReferenceIdeal.main_arg1).trans (Cert.ReferenceIdeal.RefRun.arg1_eq _),
    (h c Cert.ReferenceIdeal.main_arg2).trans (Cert.ReferenceIdeal.RefRun.arg2_eq _), (h c Cert.ReferenceIdeal.main_arg3).trans (Cert.ReferenceIdeal.RefRun.arg3_eq _),
    (h c Cert.ReferenceIdeal.main_arg4).trans (Cert.ReferenceIdeal.RefRun.arg4_eq _), (h c Cert.ReferenceIdeal.main_arg5).trans (Cert.ReferenceIdeal.RefRun.arg5_eq _)⟩

end Cert.Proof.Bridge

end
-- ==== Proof.lean ====
/- A graph-convolution layer with batch normalization, computed two ways, is one function of its inputs over the
   extended reals. The kernel multiplies the node features by the weights in fifty row blocks, lets the host gather,
   weight and scatter-add the rows along the edges and add the bias, sums each column and its squares in a second
   pass over the blocks, and normalizes, scales, shifts, clamps and adds the features back in a third. The reference
   does the same with one host contraction, the column mean, and the variance as the mean squared deviation. The two
   aggregates are the same term of the same matrix product; the two variances agree because, under the precondition
   that every float input is finite, every entry of the aggregate is a real number. Each program also runs to
   completion without a fault and leaves its arguments unchanged; the idealized kernel is the kernel's own text read
   over the extended reals, with nothing rewritten. -/
import proofs.«153004_j65549790872161_1_alg».proof.Defs
import proofs.«153004_j65549790872161_1_alg».proof.Proof.Gen.Kernel
import proofs.«153004_j65549790872161_1_alg».proof.Proof.Gen.KernelIdeal
import proofs.«153004_j65549790872161_1_alg».proof.Proof.Gen.ReferenceIdeal
import proofs.«153004_j65549790872161_1_alg».proof.Proof.Gen.Pre_finite_inputs
import proofs.«153004_j65549790872161_1_alg».proof.Proof.RefFrame
import proofs.«153004_j65549790872161_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, trivial, Bridge.algebraic⟩

end Cert.Proof

end
